-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S2x50000x128 .f32) (main_arg1 : IVec S800000 32) (main_arg2 : IVec S800000 32) (main_arg3 : FVec F S800000 .f32) (main_arg4 : FVec F S128x128 .f32) (main_arg5 : FVec F S128 .f32) (main_arg6 : FVec F S128 .f32) (main_arg7 : FVec F S128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S2x50000x128 : Shape := ⟨3, ![2, 50000, 128]⟩
abbrev S800000 : Shape := ⟨1, ![800000]⟩
abbrev S128x128 : Shape := ⟨2, ![128, 128]⟩
abbrev S128 : Shape := ⟨1, ![128]⟩
abbrev S1x50000x128 : Shape := ⟨3, ![1, 50000, 128]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S2x2000x128 : Shape := ⟨3, ![2, 2000, 128]⟩
abbrev S2000 : Shape := ⟨1, ![2000]⟩
abbrev S2000x1 : Shape := ⟨2, ![2000, 1]⟩
abbrev S1x2000x128 : Shape := ⟨3, ![1, 2000, 128]⟩

abbrev nBuf : Space → Nat
  | .hbm => 49
  | .vmem => 10
  | .smem => 0
  | _ => 0

abbrev bufTy : (tb : Table) → Fin (tcTables nBuf tb) → BufTy
  | .hbm, ⟨0, _⟩ => ⟨S2x50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x50000x128, .f32⟩
  | .hbm, ⟨9, _⟩ => ⟨S50000x128, .f32⟩
  | .hbm, ⟨10, _⟩ => ⟨S1x50000x128, .f32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x1, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S128x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S2x50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2x2000x128, .f32⟩
  | .local _ .vmem, ⟨9, _⟩ => ⟨S2x2000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x50000x128_S1x50000x128_0_0_0 : S2x50000x128.Slices ![0, 0, 0] S1x50000x128
  shapeCasts_S1x50000x128_S50000x128 : S1x50000x128.ShapeCasts S50000x128
  slices_S2x50000x128_S1x50000x128_1_0_0 : S2x50000x128.Slices ![1, 0, 0] S1x50000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2x2000x128_S1x2000x128_0_0_0 : ∀ a, (![0, 0, 0] : Fin 3 → Nat) a + S1x2000x128.size a ≤ S2x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  inb_S2x2000x128_S1x2000x128_1_0_0 : ∀ a, (![1, 0, 0] : Fin 3 → Nat) a + S1x2000x128.size a ≤ S2x2000x128.size a
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x2000x128.size a ≤ S2x50000x128.size a
  hwx0_6 : ∀ i : grid0.Coords, EltTy.bits .f32 = 32 ∨ (Rect.block (s := S2x50000x128) S2x2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S2x2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x50000x128 : Shape := ⟨3, ![2, 50000, 128]⟩
abbrev S800000 : Shape := ⟨1, ![800000]⟩
abbrev S128x128 : Shape := ⟨2, ![128, 128]⟩
abbrev S128 : Shape := ⟨1, ![128]⟩
abbrev S50000x2x128 : Shape := ⟨3, ![50000, 2, 128]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x1x128 : Shape := ⟨3, ![1, 1, 128]⟩
abbrev S2x50000 : Shape := ⟨2, ![2, 50000]⟩
abbrev S2x50000x1 : Shape := ⟨3, ![2, 50000, 1]⟩

abbrev nBuf : Space → Nat
  | .hbm => 70
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S50000x2x128, .f32⟩
  | .hbm, ⟨9, _⟩ => ⟨S50000x256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x1, .f32⟩
  | .hbm, ⟨20, _⟩ => ⟨S800000x256, .f32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S50000x2x128, .f32⟩
  | .hbm, ⟨27, _⟩ => ⟨S2x50000x128, .f32⟩
  | .hbm, ⟨28, _⟩ => ⟨S2x50000x128, .f32⟩
  | .hbm, ⟨29, _⟩ => ⟨S1x1x128, .f32⟩
  | .hbm, ⟨30, _⟩ => ⟨S2x50000x128, .f32⟩
  | .hbm, ⟨31, _⟩ => ⟨S2x50000x128, .f32⟩
  | .hbm, ⟨32, _⟩ => ⟨S2x50000x128, .f32⟩
  | .hbm, ⟨33, _⟩ => ⟨S2x50000x128, .f32⟩
  | .hbm, ⟨34, _⟩ => ⟨S_, .f32⟩
  | .hbm, ⟨35, _⟩ => ⟨S2x50000x128, .f32⟩
  | .hbm, ⟨36, _⟩ => ⟨S2x50000x128, .f32⟩
  | .hbm, ⟨37, _⟩ => ⟨S_, .f32⟩
  | .hbm, ⟨38, _⟩ => ⟨S2x50000x128, .f32⟩
  | .hbm, ⟨39, _⟩ => ⟨S2x50000x128, .f32⟩
  | .hbm, ⟨40, _⟩ => ⟨S2x50000x128, .f32⟩
  | .hbm, ⟨41, _⟩ => ⟨S_, .f32⟩
  | .hbm, ⟨42, _⟩ => ⟨S2x50000, .f32⟩
  | .hbm, ⟨43, _⟩ => ⟨S2x50000x1, .f32⟩
  | .hbm, ⟨44, _⟩ => ⟨S_, .f32⟩
  | .hbm, ⟨45, _⟩ => ⟨S2x50000x1, .f32⟩
  | .hbm, ⟨46, _⟩ => ⟨S2x50000x1, .f32⟩
  | .hbm, ⟨47, _⟩ => ⟨S2x50000x128, .f32⟩
  | .hbm, ⟨48, _⟩ => ⟨S2x50000x128, .f32⟩
  | .hbm, ⟨49, _⟩ => ⟨S2x50000x128, .f32⟩
  | .hbm, ⟨50, _⟩ => ⟨S_, .f32⟩
  | .hbm, ⟨51, _⟩ => ⟨S2x50000, .f32⟩
  | .hbm, ⟨52, _⟩ => ⟨S2x50000x1, .f32⟩
  | .hbm, ⟨53, _⟩ => ⟨S_, .f32⟩
  | .hbm, ⟨54, _⟩ => ⟨S2x50000x1, .f32⟩
  | .hbm, ⟨55, _⟩ => ⟨S2x50000x1, .f32⟩
  | .hbm, ⟨56, _⟩ => ⟨S2x50000x128, .f32⟩
  | .hbm, ⟨57, _⟩ => ⟨S2x50000x128, .f32⟩
  | .hbm, ⟨58, _⟩ => ⟨S_, .f32⟩
  | .hbm, ⟨59, _⟩ => ⟨S2x50000x1, .f32⟩
  | .hbm, ⟨60, _⟩ => ⟨S2x50000x1, .f32⟩
  | .hbm, ⟨61, _⟩ => ⟨S2x50000x1, .f32⟩
  | .hbm, ⟨62, _⟩ => ⟨S2x50000x128, .f32⟩
  | .hbm, ⟨63, _⟩ => ⟨S2x50000x128, .f32⟩
  | .hbm, ⟨64, _⟩ => ⟨S1x1x128, .f32⟩
  | .hbm, ⟨65, _⟩ => ⟨S2x50000x128, .f32⟩
  | .hbm, ⟨66, _⟩ => ⟨S2x50000x128, .f32⟩
  | .hbm, ⟨67, _⟩ => ⟨S1x1x128, .f32⟩
  | .hbm, ⟨68, _⟩ => ⟨S2x50000x128, .f32⟩
  | .hbm, ⟨69, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  transposes_S2x50000x128_S50000x2x128_1_0_2 : S2x50000x128.Transposes [1, 0, 2] S50000x2x128
  shapeCasts_S50000x2x128_S50000x256 : S50000x2x128.ShapeCasts S50000x256
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000x256_S50000x2x128 : S50000x256.ShapeCasts S50000x2x128
  transposes_S50000x2x128_S2x50000x128_1_0_2 : S50000x2x128.Transposes [1, 0, 2] S2x50000x128
  bcast_S128_S1x1x128_2 : S128.BroadcastsInDim S1x1x128 (![2] : Fin 1 → Fin S1x1x128.rank)
  bcast_S1x1x128_S2x50000x128_0_1_2 : S1x1x128.BroadcastsInDim S2x50000x128 (![0, 1, 2] : Fin 3 → Fin S2x50000x128.rank)
  bcast_S_S2x50000x128 : S_.BroadcastsInDim S2x50000x128 (![] : Fin 0 → Fin S2x50000x128.rank)
  reducesTo_S2x50000x128_S2x50000_d2 : S2x50000x128.ReducesTo [2] S2x50000
  h_S_ : 0 < S_.numel
  bcast_S2x50000_S2x50000x1_0_1 : S2x50000.BroadcastsInDim S2x50000x1 (![0, 1] : Fin 2 → Fin S2x50000x1.rank)
  bcast_S_S2x50000x1 : S_.BroadcastsInDim S2x50000x1 (![] : Fin 0 → Fin S2x50000x1.rank)
  bcast_S2x50000x1_S2x50000x128_0_1_2 : S2x50000x1.BroadcastsInDim S2x50000x128 (![0, 1, 2] : Fin 3 → Fin S2x50000x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2x50000x128_S128x128_S2x50000x128_2_1_01_0_n_n_wf : DotDims.WF S2x50000x128 S128x128 S2x50000x128 [2] [1] [0, 1] [0] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2x50000x128_S128x128_S2x50000x128_2_1_01_0_n_n : DotDims S2x50000x128 S128x128 S2x50000x128 where
  lhsContracting := [2]
  rhsContracting := [1]
  lhsNonContracting := [0, 1]
  rhsNonContracting := [0]
  lhsBatch := []
  rhsBatch := []
  wf := dot_S2x50000x128_S128x128_S2x50000x128_2_1_01_0_n_n_wf

class Facts : Prop extends Facts₀ where

variable [Facts]
-- ==== Proof.LibRowIndexing.lean ====
/-
  Row gather and accumulating row scatter read at an index, for the dimension numbers that `x[idx]` and
  `segment_sum` lower to.

  A table `x : [N, F]` (or a flat array `[N]`) is indexed by an integer column `idx : [E, 1]`.
  * GATHER: result row `e` is the table's row at `idx[e, 0]`, the index read as a signed integer and clamped
    into `[0, N − 1]` (every start index of a gather is clamped so that its slice fits).
  * SCATTER with an `add` body, at the ideal instance: element `(r, f)` of the result is the operand's element plus
    the sum of the updates `upd[e, f]` over the edges `e` whose index `idx[e, 0]`, read signed and NOT clamped, is `r`;
    an index outside `[0, N)` lands nowhere and contributes nothing.
  Shapes are parameters, so each statement serves every literal shape of a program; a program's own record of
  dimension numbers is one of the records below by `rfl`.
-/
import Idealize.ShloMosaic.PureOps.Ideal
import Idealize.ShloMosaic.Lib.ValueIdx

noncomputable section

namespace Cert.Gcn

open Idealize.ShloMosaic Idealize.ShloMosaic.ValueIdx

/-! ## Gather -/

section Gather
variable {α : Type}

/-- The dimension numbers of `x[idx]` for a table `[N, F]` and an index column `[E, 1]`: the row axis collapsed
    and indexed, the feature axis kept whole. -/
abbrev rowGatherDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row a gather reads for edge `e`: the index read signed, clamped into `[0, N − 1]`. -/
def clampRow {N w : Nat} (hN : 0 < N) (v : BitVec w) : Fin N := ⟨min v.toInt.toNat (N - 1), by omega⟩

/-- THE ROW GATHER AT `(e, f)`: the table at the clamped row, same feature. -/
theorem rowGather_apply {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N E F wf) x idx (ix2 e f) = x (ix2 (clampRow hN (idx (ix2 e (0 : Fin 1)))) f) := by
  unfold Host.gather
  congr 1
  funext a
  refine Fin.ext ?_
  have hsi : (rowGatherDims N E F wf).siIdx (ix2 e f) ⟨List.idxOf (0 : Fin 2) (rowGatherDims N E F wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGatherDims N E F wf).start (ix2 e f) idx (0 : Fin 2) + (rowGatherDims N E F wf).batchCoord (ix2 e f) (0 : Fin 2)
        + (rowGatherDims N E F wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E F wf).startIndexMap from List.mem_singleton.mpr rfl)]
    rw [hsi]
    rfl
  | ⟨1, _⟩ =>
    show (rowGatherDims N E F wf).start (ix2 e f) idx (1 : Fin 2) + (rowGatherDims N E F wf).batchCoord (ix2 e f) (1 : Fin 2)
        + (rowGatherDims N E F wf).offCoord (ix2 e f) (1 : Fin 2) = _
    rw [GatherDims.batchCoord_eq_zero _ _ _ List.not_mem_nil]
    unfold GatherDims.start
    rw [dif_neg (show (1 : Fin 2) ∉ [(0 : Fin 2)] from by decide)]
    simp only [Nat.zero_add]
    unfold GatherDims.offCoord
    rw [dif_pos (show (1 : Fin 2) ∈ (rowGatherDims N E F wf).sKept from by
      rw [GatherDims.mem_sKept]; exact ⟨(show (1 : Fin 2) ∉ [(0 : Fin 2)] from by decide), List.not_mem_nil⟩)]
    rfl

/-- The dimension numbers of `x[idx]` for a flat array `[N]` and an index column `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the array at the clamped index. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatter -/

section Scatter

/-- The dimension numbers of `segment_sum` into a table `[N, F]` from updates `[E, F]` by an index column `[E, 1]`:
    the row axis indexed, the feature axis a window kept whole. -/
abbrev rowScatterDims (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable {N E F w : Nat} (wf : ScatterDims.WF ⟨2, ![N, F]⟩ ⟨2, ![E, 1]⟩ ⟨2, ![E, F]⟩ [1] [0] [0] 1)
  (idx : IVec ⟨2, ![E, 1]⟩ w) (e : Fin E) (f : Fin F)

/-- On the row axis an update starts at its edge's index, read signed. -/
theorem rowScatter_start0 : (rowScatterDims N E F wf).start (ix2 e f) idx (0 : Fin 2) = (idx (ix2 e (0 : Fin 1))).toInt := by
  unfold ScatterDims.start
  rw [dif_pos (show (0 : Fin 2) ∈ (rowScatterDims N E F wf).scatterDimsToOperandDims from List.mem_singleton.mpr rfl)]
  have hsi : (rowScatterDims N E F wf).siIdx (ix2 e f) ⟨List.idxOf (0 : Fin 2) (rowScatterDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis it starts at zero. -/
theorem rowScatter_start1 : (rowScatterDims N E F wf).start (ix2 e f) idx (1 : Fin 2) = 0 := by
  unfold ScatterDims.start
  rw [dif_neg (show (1 : Fin 2) ∉ [(0 : Fin 2)] from by decide)]

/-- The row axis is no window axis. -/
theorem rowScatter_window0 : (rowScatterDims N E F wf).window (ix2 e f) (0 : Fin 2) = 0 := by
  unfold ScatterDims.window
  rw [dif_neg (show (0 : Fin 2) ∉ (rowScatterDims N E F wf).sKept from
    (by decide : (0 : Fin 2) ∉ (List.finRange 2).filter (fun a => a ∉ [(0 : Fin 2)])))]

/-- The feature axis is the window: the update's own feature. -/
theorem rowScatter_window1 : (rowScatterDims N E F wf).window (ix2 e f) (1 : Fin 2) = f.val := by
  unfold ScatterDims.window
  rw [dif_pos (show (1 : Fin 2) ∈ (rowScatterDims N E F wf).sKept from
    (by decide : (1 : Fin 2) ∈ (List.finRange 2).filter (fun a => a ∉ [(0 : Fin 2)])))]
  rfl

/-- WHERE AN UPDATE LANDS: update `(e, f)` lands on `(r, g)` exactly when the edge's index, read signed, is `r`
    and `f = g`; an index outside `[0, N)` lands nowhere. -/
theorem rowScatter_lands (r : Fin N) (g : Fin F) :
    (rowScatterDims N E F wf).resultIdx? (ix2 e f) idx = some (ix2 r g)
      ↔ (idx (ix2 e (0 : Fin 1))).toInt = (r.val : ℤ) ∧ f = g := by
  have h0 := r.isLt
  have h1 := g.isLt
  have hf := f.isLt
  unfold ScatterDims.resultIdx?
  split
  · rename_i h
    rw [Option.some.injEq]
    constructor
    · intro hi
      have e0 : ((rowScatterDims N E F wf).start (ix2 e f) idx (0 : Fin 2)
          + ((rowScatterDims N E F wf).window (ix2 e f) (0 : Fin 2) : ℤ)).toNat = r.val :=
        congrArg (fun j : (⟨2, ![N, F]⟩ : Shape).Idx => (j 0).val) hi
      have e1 : ((rowScatterDims N E F wf).start (ix2 e f) idx (1 : Fin 2)
          + ((rowScatterDims N E F wf).window (ix2 e f) (1 : Fin 2) : ℤ)).toNat = g.val :=
        congrArg (fun j : (⟨2, ![N, F]⟩ : Shape).Idx => (j 1).val) hi
      have k0 := (h (0 : Fin 2)).1
      rw [rowScatter_start0, rowScatter_window0] at e0 k0
      rw [rowScatter_start1, rowScatter_window1] at e1
      exact ⟨by omega, Fin.ext (by omega)⟩
    · rintro ⟨g0, g1⟩
      funext a
      refine Fin.ext ?_
      match a with
      | ⟨0, _⟩ =>
        show ((rowScatterDims N E F wf).start (ix2 e f) idx (0 : Fin 2) + ((rowScatterDims N E F wf).window (ix2 e f) (0 : Fin 2) : ℤ)).toNat = r.val
        rw [rowScatter_start0, rowScatter_window0]; omega
      | ⟨1, _⟩ =>
        show ((rowScatterDims N E F wf).start (ix2 e f) idx (1 : Fin 2) + ((rowScatterDims N E F wf).window (ix2 e f) (1 : Fin 2) : ℤ)).toNat = g.val
        rw [rowScatter_start1, rowScatter_window1, g1]; omega
  · rename_i h
    constructor
    · intro hi; exact absurd hi (by simp)
    · rintro ⟨g0, g1⟩
      exfalso; apply h
      intro a
      match a with
      | ⟨0, _⟩ =>
        show 0 ≤ (rowScatterDims N E F wf).start (ix2 e f) idx (0 : Fin 2) + ((rowScatterDims N E F wf).window (ix2 e f) (0 : Fin 2) : ℤ)
          ∧ (rowScatterDims N E F wf).start (ix2 e f) idx (0 : Fin 2) + ((rowScatterDims N E F wf).window (ix2 e f) (0 : Fin 2) : ℤ) < (N : ℤ)
        rw [rowScatter_start0, rowScatter_window0]; omega
      | ⟨1, _⟩ =>
        show 0 ≤ (rowScatterDims N E F wf).start (ix2 e f) idx (1 : Fin 2) + ((rowScatterDims N E F wf).window (ix2 e f) (1 : Fin 2) : ℤ)
          ∧ (rowScatterDims N E F wf).start (ix2 e f) idx (1 : Fin 2) + ((rowScatterDims N E F wf).window (ix2 e f) (1 : Fin 2) : ℤ) < (F : ℤ)
        rw [rowScatter_start1, rowScatter_window1]; omega

/-- THE ACCUMULATING ROW SCATTER AT `(r, g)`: the operand's element plus the updates `upd[e, g]` of the edges whose
    index is `r`. -/
theorem rowScatterAdd_apply (x : (⟨2, ![N, F]⟩ : Shape).Idx → EReal) (upd : (⟨2, ![E, F]⟩ : Shape).Idx → EReal)
    (r : Fin N) (g : Fin F) :
    Ideal.hostScatterAdd (rowScatterDims N E F wf) x idx upd (ix2 r g)
      = x (ix2 r g) + ∑ e : Fin E, if (idx (ix2 e (0 : Fin 1))).toInt = (r.val : ℤ) then upd (ix2 e g) else 0 := by
  unfold Ideal.hostScatterAdd
  congr 1
  rw [Finset.sum_filter, sum_idx2]
  refine Finset.sum_congr rfl fun e _ => ?_
  simp only [rowScatter_lands]
  by_cases hP : (idx (ix2 e (0 : Fin 1))).toInt = (r.val : ℤ)
  · simp only [hP, true_and, if_true]
    rw [Finset.sum_ite_eq' Finset.univ g (fun f => upd (ix2 e f))]
    exact if_pos (Finset.mem_univ _)
  · simp only [hP, false_and, if_false]
    exact Finset.sum_const_zero

end Scatter

/-! ## Accumulating scatter into a flat array -/

section VecScatter

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `segment_sum` into a flat array `[N]` from updates `[E]` by an index column `[E, 1]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- An update starts at its edge's index, read signed. -/
theorem vecScatter_start0 : (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window axis. -/
theorem vecScatter_window0 : (vecScatterDims N E wf).window (ix1 e) (0 : Fin 1) = 0 := by
  unfold ScatterDims.window
  rw [dif_neg (show (0 : Fin 1) ∉ (vecScatterDims N E wf).sKept from
    (by decide : (0 : Fin 1) ∉ (List.finRange 1).filter (fun a => a ∉ [(0 : Fin 1)])))]

/-- WHERE AN UPDATE LANDS: update `e` lands on `r` exactly when the edge's index, read signed, is `r`. -/
theorem vecScatter_lands (r : Fin N) :
    (vecScatterDims N E wf).resultIdx? (ix1 e) idx = some (ix1 r) ↔ (idx (ix2 e (0 : Fin 1))).toInt = (r.val : ℤ) := by
  have h0 := r.isLt
  unfold ScatterDims.resultIdx?
  split
  · rename_i h
    rw [Option.some.injEq]
    constructor
    · intro hi
      have e0 : ((vecScatterDims N E wf).start (ix1 e) idx (0 : Fin 1)
          + ((vecScatterDims N E wf).window (ix1 e) (0 : Fin 1) : ℤ)).toNat = r.val :=
        congrArg (fun j : (⟨1, ![N]⟩ : Shape).Idx => (j 0).val) hi
      have k0 := (h (0 : Fin 1)).1
      rw [vecScatter_start0, vecScatter_window0] at e0 k0
      omega
    · intro g0
      funext a
      refine Fin.ext ?_
      match a with
      | ⟨0, _⟩ =>
        show ((vecScatterDims N E wf).start (ix1 e) idx (0 : Fin 1) + ((vecScatterDims N E wf).window (ix1 e) (0 : Fin 1) : ℤ)).toNat = r.val
        rw [vecScatter_start0, vecScatter_window0]; omega
  · rename_i h
    constructor
    · intro hi; exact absurd hi (by simp)
    · intro g0
      exfalso; apply h
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [vecScatter_start0, vecScatter_window0]; omega

/-- THE ACCUMULATING FLAT SCATTER AT `r`: the operand's element plus the updates of the edges whose index is `r`. -/
theorem vecScatterAdd_apply (x : (⟨1, ![N]⟩ : Shape).Idx → EReal) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [vecScatter_lands]

end VecScatter

/-! ## The same four reads, stated for the host operations at a program's own record of dimension numbers

A program names its dimension numbers by a definition; `hd` identifies that record with the one above (by `rfl`), and the
statement is then about the host operation as the program prints it, so that it rewrites without unfolding anything. -/

section Host

theorem rowGather_host {α : Type} {N E F w : Nat} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F]) (hd : d = rowGatherDims N E F wf)
    (x : (⟨2, ![N, F]⟩ : Shape).Idx → α) (idx : IVec ⟨2, ![E, 1]⟩ w) (e : Fin E) (f : Fin F) :
    Host.gather d x idx (ix2 e f) = x (ix2 (clampRow hN (idx (ix2 e (0 : Fin 1)))) f) := by
  subst hd; exact rowGather_apply hN wf x idx e f

theorem vecGather_host {α : Type} {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hd : d = vecGatherDims N E wf)
    (x : (⟨1, ![N]⟩ : Shape).Idx → α) (idx : IVec ⟨2, ![E, 1]⟩ w) (e : Fin E) :
    Host.gather d x idx (ix1 e) = x (ix1 (clampRow hN (idx (ix2 e (0 : Fin 1))))) := by
  subst hd; exact vecGather_apply hN wf x idx e

theorem rowScatterAdd_host {N E F w : Nat} {φ : FTy}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatterDims N E F wf)
    (x : FVec Ideal ⟨2, ![N, F]⟩ φ) (idx : IVec ⟨2, ![E, 1]⟩ w) (upd : FVec Ideal ⟨2, ![E, F]⟩ φ) (r : Fin N) (g : Fin F) :
    Host.scatterAdd d x idx upd (ix2 r g)
      = x (ix2 r g) + ∑ e : Fin E, if (idx (ix2 e (0 : Fin 1))).toInt = (r.val : ℤ) then upd (ix2 e g) else 0 := by
  subst hd
  unfold Host.scatterAdd
  rw [Ideal.hostScatterAdd_def]
  exact rowScatterAdd_apply wf idx x upd r g

theorem vecScatterAdd_host {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : FVec Ideal ⟨1, ![N]⟩ φ) (idx : IVec ⟨2, ![E, 1]⟩ w) (upd : FVec Ideal ⟨1, ![E]⟩ φ) (r : Fin N) :
    Host.scatterAdd d x idx upd (ix1 r)
      = x (ix1 r) + ∑ e : Fin E, if (idx (ix2 e (0 : Fin 1))).toInt = (r.val : ℤ) then upd (ix1 e) else 0 := by
  subst hd
  unfold Host.scatterAdd
  rw [Ideal.hostScatterAdd_def]
  exact vecScatterAdd_apply wf idx x upd r

end Host

end Cert.Gcn

end
-- ==== Proof.Spec.lean ====
/-
  Sparse aggregation followed by a dense layer, the sigmoid-weighted unit and a row normalisation, as ONE function of the
  eight argument arrays.

  Edge e carries a destination row rows[e], a source row cols[e] and a weight vals[e].  For each of the two feature slabs l,
  node g and feature d the aggregate is the sum, over the edges whose destination is g, of the source node's feature times the
  edge weight: a source index below zero wraps once by the number of nodes and is then clamped into the table, a destination
  outside the table receives nothing.  Row (l, g) of the result is the aggregate row sent through y ↦ y·Wᵀ + b, then
  h ↦ h·σ(h), then centred and scaled by the inverse square root of its variance plus ε, then scaled by γ and shifted by β.
  Everything is read on the extended reals, so the order of each sum is immaterial and no rounding occurs.
-/
import Idealize.ShloMosaic.PureOps.Ideal
import Idealize.ShloMosaic.Lib.ValueIdx
import proofs.«121667_j78091095376378_2_alg».proof.Proof.LibRowIndexing

noncomputable section

namespace Cert.AggNorm

open Idealize.ShloMosaic Idealize.ShloMosaic.ValueIdx

/-- The number of nodes is positive. -/
theorem nodes_pos : 0 < 50000 := by decide

/-- The source row of an edge as an index word: a negative word wraps once by the number of nodes. -/
def wrapWord (c : BitVec 32) : BitVec 32 :=
  Scalar.select (IntOp.cmpi .slt c 0#32) (IntOp.addi c 50000#32) c

/-- The aggregate of slab l at node g, feature d: the weighted features of the sources of the edges that end in g. -/
def agg (x : (⟨3, ![2, 50000, 128]⟩ : Shape).Idx → EReal) (rows cols : (⟨1, ![800000]⟩ : Shape).Idx → BitVec 32)
    (vals : (⟨1, ![800000]⟩ : Shape).Idx → EReal) (l : Fin 2) (g : Fin 50000) (d : Fin 128) : EReal :=
  Ideal.ofBits .f32 0x00000000#32 + ∑ e : Fin 800000,
    if (rows (ix1 e)).toInt = (g.val : ℤ)
      then x (ix3 l (Cert.Gcn.clampRow nodes_pos (wrapWord (cols (ix1 e)))) d) * vals (ix1 e) else 0

/-- The dense layer on one row: entry o of y·wᵀ + b. -/
def hidden (y : Fin 128 → EReal) (w : Fin 128 → Fin 128 → EReal) (b : Fin 128 → EReal) (o : Fin 128) : EReal :=
  (∑ k : Fin 128, y k * w o k) + b o

/-- h·σ(h). -/
def silu (h : EReal) : EReal := h * Ideal.logistic h

/-- The mean of a row of 128 entries: its sum divided by 128. -/
def mean128 (s : Fin 128 → EReal) : EReal := Ideal.div (∑ k : Fin 128, s k) (Ideal.ofBits .f32 0x43000000#32)

/-- An entry minus its row's mean. -/
def centred (s : Fin 128 → EReal) (o : Fin 128) : EReal := s o - mean128 s

/-- The row normalisation: centred, divided by the root of the variance plus ε, scaled and shifted. -/
def normRow (s : Fin 128 → EReal) (γ β : Fin 128 → EReal) (o : Fin 128) : EReal :=
  centred s o * Ideal.rsqrt (mean128 (fun k => centred s k * centred s k) + Ideal.ofBits .f32 0x3727C5AC#32) * γ o + β o

/-- One output row from one aggregate row. -/
def rowOut (y : Fin 128 → EReal) (w : Fin 128 → Fin 128 → EReal) (b γ β : Fin 128 → EReal) (o : Fin 128) : EReal :=
  normRow (fun j => silu (hidden y w b j)) γ β o

/-- The whole result at (l, g, o). -/
def outAt (x : (⟨3, ![2, 50000, 128]⟩ : Shape).Idx → EReal) (rows cols : (⟨1, ![800000]⟩ : Shape).Idx → BitVec 32)
    (vals : (⟨1, ![800000]⟩ : Shape).Idx → EReal) (W : (⟨2, ![128, 128]⟩ : Shape).Idx → EReal)
    (b γ β : (⟨1, ![128]⟩ : Shape).Idx → EReal) (l : Fin 2) (g : Fin 50000) (o : Fin 128) : EReal :=
  rowOut (fun d => agg x rows cols vals l g d) (fun o k => W (ix2 o k)) (fun j => b (ix1 j)) (fun j => γ (ix1 j))
    (fun j => β (ix1 j)) o

/-- The whole result as an array. -/
def out (x : (⟨3, ![2, 50000, 128]⟩ : Shape).Idx → EReal) (rows cols : (⟨1, ![800000]⟩ : Shape).Idx → BitVec 32)
    (vals : (⟨1, ![800000]⟩ : Shape).Idx → EReal) (W : (⟨2, ![128, 128]⟩ : Shape).Idx → EReal)
    (b γ β : (⟨1, ![128]⟩ : Shape).Idx → EReal) : (⟨3, ![2, 50000, 128]⟩ : Shape).Idx → EReal :=
  fun i => outAt x rows cols vals W b γ β (i 0) (i 1) (i 2)

theorem out_ix3 (x : (⟨3, ![2, 50000, 128]⟩ : Shape).Idx → EReal) (rows cols : (⟨1, ![800000]⟩ : Shape).Idx → BitVec 32)
    (vals : (⟨1, ![800000]⟩ : Shape).Idx → EReal) (W : (⟨2, ![128, 128]⟩ : Shape).Idx → EReal)
    (b γ β : (⟨1, ![128]⟩ : Shape).Idx → EReal) (l : Fin 2) (g : Fin 50000) (o : Fin 128) :
    out x rows cols vals W b γ β (ix3 l g o) = outAt x rows cols vals W b γ β l g o := rfl

end Cert.AggNorm

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.KernelRow.lean ====
/-
  One grid step's arithmetic, read at an entry.

  The step holds a block of 2000 aggregate rows for each of the two slabs, the transposed weight matrix and the three
  vectors as one-row arrays.  For a slab, entry (r, o) of what it stores is the row function of the specification applied
  to row r of the block: the matrix product into the zero accumulator is the plain sum over the contracted coordinate, the
  two keep-dimension row sums are sums over the row, the one-row arrays are read at their column, and a change of float
  format is the identity on the extended reals.
-/
import proofs.«121667_j78091095376378_2_alg».proof.Proof.Gen.KernelIdeal.Skeleton
import proofs.«121667_j78091095376378_2_alg».proof.Proof.Spec
import proofs.«121667_j78091095376378_2_alg».proof.Proof.LibKeepdims
import proofs.«121667_j78091095376378_2_alg».proof.Proof.LibPlainMatmul
import Idealize.ShloMosaic.Lib.ValueLayout
import Idealize.ShloMosaic.Lib.Pipeline.Value

noncomputable section

namespace Cert.KernelIdeal.RowValue

open Cert.KernelIdeal Cert.KernelIdeal.Gen Idealize.ShloMosaic Idealize.ShloMosaic.ValueIdx Cert.AggNorm

theorem rsqrt_apply {s : Shape} {φ : FTy} (a : FVec Ideal s φ) (i : s.Idx) : rsqrt a i = Ideal.rsqrt (a i) := rfl

theorem logistic_apply {s : Shape} {φ : FTy} (a : FVec Ideal s φ) (i : s.Idx) : logistic a i = Ideal.logistic (a i) := rfl

/-- The block product into the zero accumulator, at (r, o): the sum over the contracted coordinate. -/
theorem dense_apply (A : FVec Ideal S2000x128 .bf16) (B : FVec Ideal S128x128 .bf16) (r : Fin 2000) (o : Fin 128) :
    matmul dot_S2000x128_S128x128_S2000x128_1_0_0_1_n_n none A B (constant (F := Ideal) S2000x128 .f32 0x00000000#32) (ix2 r o)
      = ∑ k : Fin 128, A (ix2 r k) * B (ix2 k o) :=
  Cert.LibPlainMatmul.matmul_plain_zero_apply none A B r o

/-- A row sum of the block, at row r. -/
theorem rowSum_apply (src : FVec Ideal S2000x128 .f32) (h : S2000x128.Reduces [1] S2000) (hφ : FKind.Formats FTy.f32)
    (hacc : (0x00000000#32 : BitVec FTy.f32.bits) = 0x00000000#32) (r : Fin 2000) :
    multiReduction .add [1] S2000 src 0x00000000#32 h hφ hacc (ix1 r) = ∑ k : Fin 128, src (ix2 r k) :=
  multiReduction_add_row src 0x00000000#32 h hφ hacc r

/-- What the step stores for the first slab, at (r, o). -/
theorem pay6_apply (v0 : Vec Ideal S128x128 .f32) (v3 v5 v7 : Vec Ideal S1x128 .f32) (v9 : Vec Ideal S2000x128 .f32)
    (r : Fin 2000) (o : Fin 128) :
    k0_pay6 (F := Ideal) v0 v3 v5 v7 v9 (ix3 (0 : Fin 1) r o)
      = rowOut (fun k => v9 (ix2 r k)) (fun o k => v0 (ix2 k o)) (fun j => v3 (ix2 (0 : Fin 1) j))
          (fun j => v5 (ix2 (0 : Fin 1) j)) (fun j => v7 (ix2 (0 : Fin 1) j)) o := by
  unfold k0_pay6 k0_pay2 k0_pay3 k0_pay4 k0_pay5
  simp only [shapeCast_ab_1ab_apply, shapeCast_self, addf_apply, mulf_apply, subf_apply, divf_apply, broadcastTo_1b_ab_apply,
    broadcastTo_a1_ab_apply, shapeCast_a_a1_apply, broadcast_apply, rsqrt_apply, logistic_apply, truncf_apply,
    dense_apply]
  rw [rowSum_apply, rowSum_apply]
  simp only [shapeCast_ab_1ab_apply, shapeCast_self, addf_apply, mulf_apply, subf_apply, divf_apply, broadcastTo_1b_ab_apply,
    broadcastTo_a1_ab_apply, shapeCast_a_a1_apply, broadcast_apply, rsqrt_apply, logistic_apply, truncf_apply,
    dense_apply]
  rw [rowSum_apply]
  simp only [shapeCast_ab_1ab_apply, shapeCast_self, addf_apply, mulf_apply, subf_apply, divf_apply, broadcastTo_1b_ab_apply,
    broadcastTo_a1_ab_apply, shapeCast_a_a1_apply, broadcast_apply, rsqrt_apply, logistic_apply, truncf_apply,
    dense_apply]
  rfl

/-- What the step stores for the second slab, at (r, o). -/
theorem pay1_apply (v2 : FVec Ideal S128x128 .bf16) (v4 v6 v8 : FVec Ideal S1x128 .f32) (v40 : Vec Ideal S2000x128 .f32)
    (r : Fin 2000) (o : Fin 128) :
    k0_pay1 (F := Ideal) v2 v4 v6 v8 v40 (ix3 (0 : Fin 1) r o)
      = rowOut (fun k => v40 (ix2 r k)) (fun o k => v2 (ix2 k o)) (fun j => v4 (ix2 (0 : Fin 1) j))
          (fun j => v6 (ix2 (0 : Fin 1) j)) (fun j => v8 (ix2 (0 : Fin 1) j)) o := by
  unfold k0_pay1
  simp only [shapeCast_ab_1ab_apply, shapeCast_self, addf_apply, mulf_apply, subf_apply, divf_apply, broadcastTo_1b_ab_apply,
    broadcastTo_a1_ab_apply, shapeCast_a_a1_apply, broadcast_apply, rsqrt_apply, logistic_apply, truncf_apply,
    dense_apply]
  rw [rowSum_apply, rowSum_apply]
  simp only [shapeCast_ab_1ab_apply, shapeCast_self, addf_apply, mulf_apply, subf_apply, divf_apply, broadcastTo_1b_ab_apply,
    broadcastTo_a1_ab_apply, shapeCast_a_a1_apply, broadcast_apply, rsqrt_apply, logistic_apply, truncf_apply,
    dense_apply]
  rw [rowSum_apply]
  simp only [shapeCast_ab_1ab_apply, shapeCast_self, addf_apply, mulf_apply, subf_apply, divf_apply, broadcastTo_1b_ab_apply,
    broadcastTo_a1_ab_apply, shapeCast_a_a1_apply, broadcast_apply, rsqrt_apply, logistic_apply, truncf_apply,
    dense_apply]
  rfl

/-- The loaded weight block, recast to the product's operand format, is the block itself. -/
theorem pay2_apply (v0 : Vec Ideal S128x128 .f32) (i : S128x128.Idx) : k0_pay2 (F := Ideal) v0 i = v0 i := by
  unfold k0_pay2
  simp only [truncf_apply, shapeCast_self]

theorem pay3_apply (v : Vec Ideal S1x128 .f32) (i : S1x128.Idx) : k0_pay3 (F := Ideal) v i = v i := by
  unfold k0_pay3
  simp only [shapeCast_self]

theorem pay4_apply (v : Vec Ideal S1x128 .f32) (i : S1x128.Idx) : k0_pay4 (F := Ideal) v i = v i := by
  unfold k0_pay4
  simp only [shapeCast_self]

theorem pay5_apply (v : Vec Ideal S1x128 .f32) (i : S1x128.Idx) : k0_pay5 (F := Ideal) v i = v i := by
  unfold k0_pay5
  simp only [shapeCast_self]

end Cert.KernelIdeal.RowValue

end
-- ==== Proof.LibLayoutReads.lean ====
/-
  Small reads at an index, for the layout operations around a gather and a scatter, and the two facts about
  32-bit index words that the aggregation needs.

  * A flat array broadcast to a column, a scalar broadcast to any shape, a column repeated along the features, a
    bias `[F]` repeated for every node (through `[1, F]`), and the reshapes `[F] → [1, F]`, `[N] → [N, 1]`:
    each read at an index is the operand at the evident index.
  * `x[idx]` wraps a negative index by the table's length once before the gather clamps it. An index word whose
    signed value is a row `c` of the table is read back as `c`: it is not negative, so it is not wrapped, and it is
    inside the table, so the clamp leaves it. The word of a small natural number `i` has signed value `i`.
-/
import Idealize.ShloMosaic.Lib.Pipeline.Value
import Idealize.ShloMosaic.Lib.ValueIdx
import proofs.«121667_j78091095376378_2_alg».proof.Proof.LibRowIndexing

noncomputable section

namespace Cert.Gcn

open Idealize.ShloMosaic Idealize.ShloMosaic.ValueIdx

section Layout
variable {α : Type}

/-- A scalar broadcast holds the scalar everywhere. -/
theorem bcastScalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A flat array as a column: entry `e` of the column is entry `e` of the array. -/
theorem bcastCol_apply {E : ℕ} (hE : E ≠ 1) (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) :=
  broadcastInDim_apply _ h x _ (ix1 e) (fun a => match a with
    | ⟨0, _⟩ => by show e.val = if E = 1 then 0 else e.val; rw [if_neg hE])

/-- A column repeated along the features: entry `(e, g)` is the column's entry `e`. -/
theorem bcastAlong_apply {E F : ℕ} (hE : E ≠ 1) (h : (⟨2, ![E, 1]⟩ : Shape).BroadcastsInDim ⟨2, ![E, F]⟩ ![0, 1])
    (x : (⟨2, ![E, 1]⟩ : Shape).Idx → α) (e : Fin E) (g : Fin F) :
    broadcastInDim ⟨2, ![E, F]⟩ ![0, 1] h x (ix2 e g) = x (ix2 e (0 : Fin 1)) :=
  broadcastInDim_apply _ h x _ (ix2 e (0 : Fin 1)) (fun a => match a with
    | ⟨0, _⟩ => by show e.val = if E = 1 then 0 else e.val; rw [if_neg hE]
    | ⟨1, _⟩ => by show 0 = if (1 : ℕ) = 1 then 0 else g.val; rw [if_pos rfl])

/-- A bias `[F]` as a row `[1, F]` repeated for every node: entry `(c, g)` is `b g`. -/
theorem bcastBias_apply {N F : ℕ} (hF : F ≠ 1) (h1 : (⟨1, ![F]⟩ : Shape).BroadcastsInDim ⟨2, ![1, F]⟩ ![1])
    (h2 : (⟨2, ![1, F]⟩ : Shape).BroadcastsInDim ⟨2, ![N, F]⟩ ![0, 1]) (b : (⟨1, ![F]⟩ : Shape).Idx → α) (c : Fin N) (g : Fin F) :
    broadcastInDim ⟨2, ![N, F]⟩ ![0, 1] h2 (broadcastInDim ⟨2, ![1, F]⟩ ![1] h1 b) (ix2 c g) = b (ix1 g) := by
  rw [broadcastInDim_apply _ h2 _ _ (ix2 (0 : Fin 1) g) (fun a => match a with
    | ⟨0, _⟩ => by show 0 = if (1 : ℕ) = 1 then 0 else c.val; rw [if_pos rfl]
    | ⟨1, _⟩ => by show g.val = if F = 1 then 0 else g.val; rw [if_neg hF])]
  exact broadcastInDim_apply _ h1 b _ (ix1 g) (fun a => match a with
    | ⟨0, _⟩ => by show g.val = if F = 1 then 0 else g.val; rw [if_neg hF])

/-- The reshape `[F] → [1, F]`. -/
theorem reshapeRow_apply {F : ℕ} (h : (⟨1, ![F]⟩ : Shape).ShapeCasts ⟨2, ![1, F]⟩) (b : (⟨1, ![F]⟩ : Shape).Idx → α) (g : Fin F) :
    shapeCast ⟨2, ![1, F]⟩ b h (ix2 (0 : Fin 1) g) = b (ix1 g) :=
  shapeCast_apply b h _ (ix1 g) (by
    rw [Shape.rowMajor_val_two, Shape.rowMajor_val_one]; show g.val = 0 * F + g.val; omega)

/-- The reshape `[N] → [N, 1]`. -/
theorem reshapeCol_apply {N : ℕ} (h : (⟨1, ![N]⟩ : Shape).ShapeCasts ⟨2, ![N, 1]⟩) (v : (⟨1, ![N]⟩ : Shape).Idx → α) (r : Fin N) :
    shapeCast ⟨2, ![N, 1]⟩ v h (ix2 r (0 : Fin 1)) = v (ix1 r) :=
  shapeCast_apply v h _ (ix1 r) (by
    rw [Shape.rowMajor_val_two, Shape.rowMajor_val_one]; show r.val = r.val * 1 + 0; omega)

end Layout

/-! ## Index words -/

/-- How `x[idx]` prepares an index word for a table of length `n`: a negative one is wrapped by `n` once. -/
def wrapIdx (n v : BitVec 32) : BitVec 32 := Scalar.select (IntOp.cmpi .slt v 0#32) (IntOp.addi v n) v

/-- A word that is not negative is not wrapped. -/
theorem wrapIdx_of_nonneg (n v : BitVec 32) (h : 0 ≤ v.toInt) : wrapIdx n v = v := by
  unfold wrapIdx IntOp.cmpi
  have hs : v.slt 0#32 = false := by
    rw [BitVec.slt]; simp only [BitVec.toInt_zero]; exact decide_eq_false (by omega)
  simp only [hs, BitVec.ofBool_false]
  exact if_neg (by decide)

/-- A word whose signed value is a row `c` of the table is read back as `c`. -/
theorem clampRow_wrapIdx_of_toInt {N : ℕ} (hN : 0 < N) (n v : BitVec 32) (c : Fin N) (h : v.toInt = (c.val : ℤ)) :
    clampRow hN (wrapIdx n v) = c := by
  rw [wrapIdx_of_nonneg n v (by omega)]
  refine Fin.ext ?_
  show min v.toInt.toNat (N - 1) = c.val
  have := c.isLt
  omega

/-- The word of a natural number below `2 ^ 31` has that number as its signed value. -/
theorem toInt_ofNat_small (i : ℕ) (h : i < 2147483648) : (BitVec.ofNat 32 i).toInt = (i : ℤ) := by
  rw [BitVec.toInt_eq_toNat_cond, BitVec.toNat_ofNat]
  have hm : i % 2 ^ 32 = i := Nat.mod_eq_of_lt (by omega)
  rw [hm]
  split <;> omega

/-- So the word of a row `i` is read back as `i`. -/
theorem clampRow_wrapIdx_ofNat {N : ℕ} (hN : 0 < N) (hN' : N ≤ 2147483648) (n : BitVec 32) (i : Fin N) :
    clampRow hN (wrapIdx n (BitVec.ofNat 32 i.val)) = i :=
  clampRow_wrapIdx_of_toInt hN n _ i (toInt_ofNat_small i.val (by have := i.isLt; omega))

end Cert.Gcn

end
-- ==== Proof.KernelHost.lean ====
/-
  What the grid finds in the arrays it reads.

  Before the grid starts, the program builds, for each of the two slabs, the aggregate array: the slab's rows gathered at the
  edges' source nodes, each multiplied by its edge weight, and summed into the edges' destination rows.  It also transposes
  the weight matrix and recasts the three vectors as one-row arrays.  Read at an entry, each of these is the evident entry of
  the arguments: the aggregate at (g, d) is the specification's aggregate, the transposed matrix at (k, o) is W at (o, k), and
  a one-row array at (0, j) is its vector at j.
-/
import proofs.«121667_j78091095376378_2_alg».proof.Proof.Gen.KernelIdeal.Frame
import proofs.«121667_j78091095376378_2_alg».proof.Proof.Spec
import proofs.«121667_j78091095376378_2_alg».proof.Proof.LibLayoutReads
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.ValueIdx Idealize.ShloMosaic.TcCoe
open Idealize.SL.Sem Idealize.ShloMosaic.StableHlo Cert.AggNorm Cert.Gcn

/-- One slab's aggregate array as the host operations build it: the slab is the slice of the feature array at the
    offsets off (its first entry the slab's number). -/
def aggArr (off : Fin 3 → Nat) (hs : S2x50000x128.Slices off S1x50000x128) (x : FVec Ideal S2x50000x128 .f32)
    (rows cols : IVec S800000 32) (vals : FVec Ideal S800000 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 rows)
    (mulf
      (Host.gather gather_S50000x128_S800000x1_S800000x128_1_0_n_n_0_1_1128
        (shapeCast S50000x128 (extractStridedSlice S1x50000x128 off x hs) shapeCasts_S1x50000x128_S50000x128)
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols)))
      (broadcastInDim S800000x128 ![0, 1] bcast_S800000x1_S800000x128_0_1
        (broadcastInDim S800000x1 ![0] bcast_S800000_S800000x1_0 vals)))

/-- The aggregate array at (g, d) is the specification's aggregate of slab l, when the slice starts at slab l. -/
theorem aggArr_apply (l : Fin 2) (off : Fin 3 → Nat) (hs : S2x50000x128.Slices off S1x50000x128)
    (h0 : off 0 = l.val) (h1 : off 1 = 0) (h2 : off 2 = 0) (x : FVec Ideal S2x50000x128 .f32)
    (rows cols : IVec S800000 32) (vals : FVec Ideal S800000 .f32) (g : Fin 50000) (d : Fin 128) :
    aggArr off hs x rows cols vals (ix2 g d) = agg x rows cols vals l g d := by
  unfold aggArr agg
  rw [rowScatterAdd_host scatter_S50000x128_S800000x1_S800000x128_1_0_0_1 scatter_S50000x128_S800000x1_S800000x128_1_0_0_1_wf rfl, bcastScalar_apply]
  refine congrArg (Ideal.ofBits .f32 0x00000000#32 + ·) (Finset.sum_congr rfl fun e _ => ?_)
  rw [bcastCol_apply (by decide)]
  refine if_congr Iff.rfl ?_ rfl
  rw [mulf_apply, rowGather_host nodes_pos gather_S50000x128_S800000x1_S800000x128_1_0_n_n_0_1_1128 gather_S50000x128_S800000x1_S800000x128_1_0_n_n_0_1_1128_wf rfl,
    bcastAlong_apply (by decide), bcastCol_apply (by decide), bcastCol_apply (by decide), shapeCast_1ab_ab_apply]
  refine congrArg (· * vals (ix1 e)) ?_
  refine extractStridedSlice_apply off x hs _ _ fun a => ?_
  match a with
  | ⟨0, _⟩ => show l.val = off 0 + 0; omega
  | ⟨1, _⟩ => show _ = off 1 + _; rw [h1, Nat.zero_add]; rfl
  | ⟨2, _⟩ => show _ = off 2 + _; rw [h2, Nat.zero_add]; rfl

variable (m : (ℓ : Loc nD τ sig) → Buf (Elt Ideal) ℓ)

set_option maxHeartbeats 4000000 in
/-- The first slab's aggregate array, as the grid finds it. -/
theorem V_agg0 (c : Dev nD) : (V m c main_v26 : S50000x128.Idx → EReal)
    = aggArr ![0, 0, 0] slices_S2x50000x128_S1x50000x128_0_0_0 (m ((c : Thread nD τ).loc main_arg0))
        (m ((c : Thread nD τ).loc main_arg1)) (m ((c : Thread nD τ).loc main_arg2)) (m ((c : Thread nD τ).loc main_arg3)) := by
  dsimp only [V, hostOps0]; after_results_simp <;> rfl

set_option maxHeartbeats 4000000 in
/-- The second slab's aggregate array, as the grid finds it. -/
theorem V_agg1 (c : Dev nD) : (V m c main_v29 : S50000x128.Idx → EReal)
    = aggArr ![1, 0, 0] slices_S2x50000x128_S1x50000x128_1_0_0 (m ((c : Thread nD τ).loc main_arg0))
        (m ((c : Thread nD τ).loc main_arg1)) (m ((c : Thread nD τ).loc main_arg2)) (m ((c : Thread nD τ).loc main_arg3)) := by
  dsimp only [V, hostOps0]; after_results_simp <;> rfl

/-- The transposed weight matrix, as the grid finds it. -/
theorem V_wt (c : Dev nD) : (V m c main_v30 : S128x128.Idx → EReal)
    = transpose S128x128 [1, 0] (m ((c : Thread nD τ).loc main_arg4)) transposes_S128x128_S128x128_1_0 := by
  dsimp only [V, hostOps0]; after_results_simp <;> rfl

/-- The bias as a one-row array, as the grid finds it. -/
theorem V_b (c : Dev nD) : (V m c main_v31 : S1x128.Idx → EReal)
    = shapeCast S1x128 (m ((c : Thread nD τ).loc main_arg5)) shapeCasts_S128_S1x128 := by
  dsimp only [V, hostOps0]; after_results_simp <;> rfl

/-- The scale as a one-row array, as the grid finds it. -/
theorem V_gamma (c : Dev nD) : (V m c main_v32 : S1x128.Idx → EReal)
    = shapeCast S1x128 (m ((c : Thread nD τ).loc main_arg6)) shapeCasts_S128_S1x128 := by
  dsimp only [V, hostOps0]; after_results_simp <;> rfl

/-- The shift as a one-row array, as the grid finds it. -/
theorem V_beta (c : Dev nD) : (V m c main_v33 : S1x128.Idx → EReal)
    = shapeCast S1x128 (m ((c : Thread nD τ).loc main_arg7)) shapeCasts_S128_S1x128 := by
  dsimp only [V, hostOps0]; after_results_simp <;> rfl

end Cert.KernelIdeal.HostValue

end
-- ==== Proof.KernelBlock.lean ====
/-
  One grid step, from the arrays the grid finds to the block it writes.

  At step t the two aggregate windows hold rows 2000·t … 2000·t + 1999 of the two aggregate arrays, the other four windows
  hold their whole arrays, and the step stores, for each slab, the row function of every row of its block.  So entry
  (l, r, o) of the stored block is the specified result at (l, 2000·t + r, o): the aggregate rows are the specification's
  aggregates, the weight block is the transposed matrix, and the three one-row blocks are the three vectors.
-/
import proofs.«121667_j78091095376378_2_alg».proof.Proof.Gen.KernelIdeal.Value
import proofs.«121667_j78091095376378_2_alg».proof.Proof.KernelRow
import proofs.«121667_j78091095376378_2_alg».proof.Proof.KernelHost
import Idealize.ShloMosaic.Lib.Pipeline.Value

noncomputable section

namespace Cert.KernelIdeal.ArrayValue

open Cert.KernelIdeal Cert.KernelIdeal.Gen Idealize.ShloMosaic Idealize.ShloMosaic.ValueIdx Idealize.ShloMosaic.TcCoe
open Idealize.SL.Sem Cert.AggNorm Cert.KernelIdeal.RowValue
open Idealize.ShloMosaic.Pipeline (Dat)

theorem hz2 : (![0, 0] : Fin 2 → Nat) = fun _ => 0 := funext fun a => by fin_cases a <;> rfl

/-- Entry (1, r, o) of the output block is entry (0, r, o) of the second store's rectangle. -/
theorem emb_slab1 (r : Fin 2000) (o : Fin 128) : r0_4.emb (ix3 (0 : Fin 1) r o) = ix3 (1 : Fin 2) r o := by
  funext a; apply Fin.ext
  match a with
  | ⟨0, _⟩ => rfl
  | ⟨1, _⟩ => show 0 + 1 * r.val = r.val; omega
  | ⟨2, _⟩ => show 0 + 1 * o.val = o.val; omega

/-- Entry (0, r, o) of the output block is entry (0, r, o) of the first store's rectangle. -/
theorem emb_slab0 (r : Fin 2000) (o : Fin 128) : r0_3.emb (ix3 (0 : Fin 1) r o) = ix3 (0 : Fin 2) r o := by
  funext a; apply Fin.ext
  match a with
  | ⟨0, _⟩ => rfl
  | ⟨1, _⟩ => show 0 + 1 * r.val = r.val; omega
  | ⟨2, _⟩ => show 0 + 1 * o.val = o.val; omega

/-- It is not in the second store's rectangle. -/
theorem not_mem_slab1 (r : Fin 2000) (o : Fin 128) : ix3 (0 : Fin 2) r o ∉ r0_4.set := by
  intro h
  rw [Rect.mem_set_unit] at h
  exact Nat.not_succ_le_zero 0 (h 0).1

/-- The output block after a grid step, at (0, r, o): the row function on row r of the first slab's input block. -/
theorem out6_slab0 (x0 x1 : Vec Ideal S2000x128 .f32) (x2 : Vec Ideal S128x128 .f32) (x3 x4 x5 : Vec Ideal S1x128 .f32)
    (r : Fin 2000) (o : Fin 128) :
    out0_6 x0 x1 x2 x3 x4 x5 (ix3 (0 : Fin 2) r o)
      = rowOut (fun k => x0 (ix2 r k)) (fun o k => x2 (ix2 k o))
          (fun j => x3 (ix2 (0 : Fin 1) j)) (fun j => x4 (ix2 (0 : Fin 1) j)) (fun j => x5 (ix2 (0 : Fin 1) j)) o := by
  unfold out0_6
  simp only [View.ld_unit_zero (S := S128x128) hz2, View.ld_unit_zero (S := S1x128) hz2, View.ld_unit_zero (S := S2000x128) hz2]
  rw [View.canon_cons_of_not_mem (⟨r0_4, _⟩ : View.Piece (Elt Ideal) S2x2000x128 .f32) _ (not_mem_slab1 r o), ← emb_slab0 r o,
    View.canon_cons_emb, pay6_apply]

/-- The output block after a grid step, at (1, r, o): the row function on row r of the second slab's input block. -/
theorem out6_slab1 (x0 x1 : Vec Ideal S2000x128 .f32) (x2 : Vec Ideal S128x128 .f32) (x3 x4 x5 : Vec Ideal S1x128 .f32)
    (r : Fin 2000) (o : Fin 128) :
    out0_6 x0 x1 x2 x3 x4 x5 (ix3 (1 : Fin 2) r o)
      = rowOut (fun k => x1 (ix2 r k)) (fun o k => x2 (ix2 k o))
          (fun j => x3 (ix2 (0 : Fin 1) j)) (fun j => x4 (ix2 (0 : Fin 1) j)) (fun j => x5 (ix2 (0 : Fin 1) j)) o := by
  unfold out0_6
  simp only [View.ld_unit_zero (S := S128x128) hz2, View.ld_unit_zero (S := S1x128) hz2, View.ld_unit_zero (S := S2000x128) hz2]
  rw [← emb_slab1 r o, View.canon_cons_emb, pay1_apply]
  simp only [pay2_apply, pay3_apply, pay4_apply, pay5_apply]

theorem fin2_cases (l : Fin 2) : l = 0 ∨ l = 1 := by
  match l with
  | ⟨0, _⟩ => exact Or.inl rfl
  | ⟨1, _⟩ => exact Or.inr rfl

/-! ## The windows' blocks -/

/-- Where each window's block sits at grid step t: the two aggregate blocks and the output block move down the node axis
    with t, every other block is its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = t.val ∧ win0_6.index t (2 : Fin 3) = 0 :=
  (by decide +kernel : ∀ t : Fin grid0.N, _)

theorem step_lt (t : Fin cfg0.N) : t.val < 25 := Nat.lt_of_lt_of_eq t.isLt N_0

/-- Row r of the first window's block at step t is row 2000·t + r of its array. -/
theorem blkread0 (A : S50000x128.Idx → EReal) (t : Fin cfg0.N) (r : Fin 2000) (k : Fin 128) (g : Fin 50000) (hg : g.val = t.val * 2000 + r.val) :
    ((cfg0.win 0).blk t).view.read (Elt Ideal) A (ix2 r k) = A (ix2 g k) := by
  have e := idx_facts t
  rw [View.read_apply]
  refine congrArg A (funext fun a => Fin.ext ?_)
  match a with
  | ⟨0, _⟩ => show win0_0.index t (0 : Fin 2) * 2000 + 1 * r.val = g.val; rw [e.1, hg]; omega
  | ⟨1, _⟩ => show win0_0.index t (1 : Fin 2) * 128 + 1 * k.val = k.val; rw [e.2.1]; omega

/-- Row r of the second window's block at step t is row 2000·t + r of its array. -/
theorem blkread1 (A : S50000x128.Idx → EReal) (t : Fin cfg0.N) (r : Fin 2000) (k : Fin 128) (g : Fin 50000) (hg : g.val = t.val * 2000 + r.val) :
    ((cfg0.win 1).blk t).view.read (Elt Ideal) A (ix2 r k) = A (ix2 g k) := by
  have e := idx_facts t
  rw [View.read_apply]
  refine congrArg A (funext fun a => Fin.ext ?_)
  match a with
  | ⟨0, _⟩ => show win0_1.index t (0 : Fin 2) * 2000 + 1 * r.val = g.val; rw [e.2.2.1, hg]; omega
  | ⟨1, _⟩ => show win0_1.index t (1 : Fin 2) * 128 + 1 * k.val = k.val; rw [e.2.2.2.1]; omega

/-- The third window's block at any step is its whole array. -/
theorem blkread2 (A : S128x128.Idx → EReal) (t : Fin cfg0.N) (k o : Fin 128) :
    ((cfg0.win 2).blk t).view.read (Elt Ideal) A (ix2 k o) = A (ix2 k o) := by
  have e := idx_facts t
  rw [View.read_apply]
  refine congrArg A (funext fun a => Fin.ext ?_)
  match a with
  | ⟨0, _⟩ => show win0_2.index t (0 : Fin 2) * 128 + 1 * k.val = k.val; rw [e.2.2.2.2.1]; omega
  | ⟨1, _⟩ => show win0_2.index t (1 : Fin 2) * 128 + 1 * o.val = o.val; rw [e.2.2.2.2.2.1]; omega

/-- The fourth window's block at any step is its whole one-row array. -/
theorem blkread3 (A : S1x128.Idx → EReal) (t : Fin cfg0.N) (j : Fin 128) :
    ((cfg0.win 3).blk t).view.read (Elt Ideal) A (ix2 (0 : Fin 1) j) = A (ix2 (0 : Fin 1) j) := by
  have e := idx_facts t
  rw [View.read_apply]
  refine congrArg A (funext fun a => Fin.ext ?_)
  match a with
  | ⟨0, _⟩ => show win0_3.index t (0 : Fin 2) * 1 + 1 * 0 = 0; rw [e.2.2.2.2.2.2.1]
  | ⟨1, _⟩ => show win0_3.index t (1 : Fin 2) * 128 + 1 * j.val = j.val; rw [e.2.2.2.2.2.2.2.1]; omega

/-- The fifth window's block at any step is its whole one-row array. -/
theorem blkread4 (A : S1x128.Idx → EReal) (t : Fin cfg0.N) (j : Fin 128) :
    ((cfg0.win 4).blk t).view.read (Elt Ideal) A (ix2 (0 : Fin 1) j) = A (ix2 (0 : Fin 1) j) := by
  have e := idx_facts t
  rw [View.read_apply]
  refine congrArg A (funext fun a => Fin.ext ?_)
  match a with
  | ⟨0, _⟩ => show win0_4.index t (0 : Fin 2) * 1 + 1 * 0 = 0; rw [e.2.2.2.2.2.2.2.2.1]
  | ⟨1, _⟩ => show win0_4.index t (1 : Fin 2) * 128 + 1 * j.val = j.val; rw [e.2.2.2.2.2.2.2.2.2.1]; omega

/-- The sixth window's block at any step is its whole one-row array. -/
theorem blkread5 (A : S1x128.Idx → EReal) (t : Fin cfg0.N) (j : Fin 128) :
    ((cfg0.win 5).blk t).view.read (Elt Ideal) A (ix2 (0 : Fin 1) j) = A (ix2 (0 : Fin 1) j) := by
  have e := idx_facts t
  rw [View.read_apply]
  refine congrArg A (funext fun a => Fin.ext ?_)
  match a with
  | ⟨0, _⟩ => show win0_5.index t (0 : Fin 2) * 1 + 1 * 0 = 0; rw [e.2.2.2.2.2.2.2.2.2.2.1]
  | ⟨1, _⟩ => show win0_5.index t (1 : Fin 2) * 128 + 1 * j.val = j.val; rw [e.2.2.2.2.2.2.2.2.2.2.2.1]; omega

/-! ## The arrays behind the windows -/

variable (m : (ℓ : Loc nD τ sig) → Buf (Elt Ideal) ℓ)

/-- The contents found at a buffer depend on the buffer's name only. -/
theorem V_heq (c : Dev nD) {b b' : Ref sig .tc} (h : b = b') : HEq (V m c b) (V m c b') := by
  subst h; rfl

theorem V_arr0 (c : Dev nD) : (V m c (Pipeline.arrRef spec0 0) : S50000x128.Idx → EReal) = (V m c main_v26 : S50000x128.Idx → EReal) :=
  eq_of_heq (V_heq m c (b := Pipeline.arrRef spec0 0) (b' := main_v26) rfl)
theorem V_arr1 (c : Dev nD) : (V m c (Pipeline.arrRef spec0 1) : S50000x128.Idx → EReal) = (V m c main_v29 : S50000x128.Idx → EReal) :=
  eq_of_heq (V_heq m c (b := Pipeline.arrRef spec0 1) (b' := main_v29) rfl)
theorem V_arr2 (c : Dev nD) : (V m c (Pipeline.arrRef spec0 2) : S128x128.Idx → EReal) = (V m c main_v30 : S128x128.Idx → EReal) :=
  eq_of_heq (V_heq m c (b := Pipeline.arrRef spec0 2) (b' := main_v30) rfl)
theorem V_arr3 (c : Dev nD) : (V m c (Pipeline.arrRef spec0 3) : S1x128.Idx → EReal) = (V m c main_v31 : S1x128.Idx → EReal) :=
  eq_of_heq (V_heq m c (b := Pipeline.arrRef spec0 3) (b' := main_v31) rfl)
theorem V_arr4 (c : Dev nD) : (V m c (Pipeline.arrRef spec0 4) : S1x128.Idx → EReal) = (V m c main_v32 : S1x128.Idx → EReal) :=
  eq_of_heq (V_heq m c (b := Pipeline.arrRef spec0 4) (b' := main_v32) rfl)
theorem V_arr5 (c : Dev nD) : (V m c (Pipeline.arrRef spec0 5) : S1x128.Idx → EReal) = (V m c main_v33 : S1x128.Idx → EReal) :=
  eq_of_heq (V_heq m c (b := Pipeline.arrRef spec0 5) (b' := main_v33) rfl)

/-! ## The windows' blocks as entries of the arguments -/

/-- Row r of the first aggregate block at step t holds the specification's aggregates of slab 0 at node 2000·t + r. -/
theorem iblk0_at (c : Dev nD) (t : Fin cfg0.N) (r : Fin 2000) (k : Fin 128) (g : Fin 50000)
    (hg : g.val = t.val * 2000 + r.val) :
    (iblk m c 0 t : Vec Ideal S2000x128 .f32) (ix2 r k)
      = agg (m ((c : Thread nD τ).loc main_arg0)) (m ((c : Thread nD τ).loc main_arg1)) (m ((c : Thread nD τ).loc main_arg2))
      (m ((c : Thread nD τ).loc main_arg3)) 0 g k := by
  unfold iblk
  exact (blkread0 _ t r k g hg).trans ((congrFun (V_arr0 m c) (ix2 g k)).trans
    ((congrFun (HostValue.V_agg0 m c) (ix2 g k)).trans (HostValue.aggArr_apply 0 _ _ rfl rfl rfl _ _ _ _ g k)))

/-- Row r of the second aggregate block at step t holds the specification's aggregates of slab 1 at node 2000·t + r. -/
theorem iblk1_at (c : Dev nD) (t : Fin cfg0.N) (r : Fin 2000) (k : Fin 128) (g : Fin 50000)
    (hg : g.val = t.val * 2000 + r.val) :
    (iblk m c 1 t : Vec Ideal S2000x128 .f32) (ix2 r k)
      = agg (m ((c : Thread nD τ).loc main_arg0)) (m ((c : Thread nD τ).loc main_arg1)) (m ((c : Thread nD τ).loc main_arg2))
      (m ((c : Thread nD τ).loc main_arg3)) 1 g k := by
  unfold iblk
  exact (blkread1 _ t r k g hg).trans ((congrFun (V_arr1 m c) (ix2 g k)).trans
    ((congrFun (HostValue.V_agg1 m c) (ix2 g k)).trans (HostValue.aggArr_apply 1 _ _ rfl rfl rfl _ _ _ _ g k)))

/-- The weight block at (k, o) is W at (o, k). -/
theorem iblk2_at (c : Dev nD) (t : Fin cfg0.N) (o k : Fin 128) :
    (iblk m c 2 t : Vec Ideal S128x128 .f32) (ix2 k o)
      = (m ((c : Thread nD τ).loc main_arg4) : S128x128.Idx → EReal) (ix2 o k) := by
  unfold iblk
  exact (blkread2 _ t k o).trans ((congrFun (V_arr2 m c) (ix2 k o)).trans
    ((congrFun (HostValue.V_wt m c) (ix2 k o)).trans (transpose_ix2_apply _ _ k o)))

/-- The bias block at (0, j) is the bias at j. -/
theorem iblk3_at (c : Dev nD) (t : Fin cfg0.N) (j : Fin 128) :
    (iblk m c 3 t : Vec Ideal S1x128 .f32) (ix2 (0 : Fin 1) j)
      = (m ((c : Thread nD τ).loc main_arg5) : S128.Idx → EReal) (ix1 j) := by
  unfold iblk
  exact (blkread3 _ t j).trans ((congrFun (V_arr3 m c) (ix2 (0 : Fin 1) j)).trans
    ((congrFun (HostValue.V_b m c) (ix2 (0 : Fin 1) j)).trans (shapeCast_a_1a_apply _ _ 0 j)))

/-- The scale block at (0, j) is the scale at j. -/
theorem iblk4_at (c : Dev nD) (t : Fin cfg0.N) (j : Fin 128) :
    (iblk m c 4 t : Vec Ideal S1x128 .f32) (ix2 (0 : Fin 1) j)
      = (m ((c : Thread nD τ).loc main_arg6) : S128.Idx → EReal) (ix1 j) := by
  unfold iblk
  exact (blkread4 _ t j).trans ((congrFun (V_arr4 m c) (ix2 (0 : Fin 1) j)).trans
    ((congrFun (HostValue.V_gamma m c) (ix2 (0 : Fin 1) j)).trans (shapeCast_a_1a_apply _ _ 0 j)))

/-- The shift block at (0, j) is the shift at j. -/
theorem iblk5_at (c : Dev nD) (t : Fin cfg0.N) (j : Fin 128) :
    (iblk m c 5 t : Vec Ideal S1x128 .f32) (ix2 (0 : Fin 1) j)
      = (m ((c : Thread nD τ).loc main_arg7) : S128.Idx → EReal) (ix1 j) := by
  unfold iblk
  exact (blkread5 _ t j).trans ((congrFun (V_arr5 m c) (ix2 (0 : Fin 1) j)).trans
    ((congrFun (HostValue.V_beta m c) (ix2 (0 : Fin 1) j)).trans (shapeCast_a_1a_apply _ _ 0 j)))

/-- The row function depends on its five arguments only through their values. -/
theorem rowOut_congr {y y' : Fin 128 → EReal} {w w' : Fin 128 → Fin 128 → EReal} {b b' γ γ' β β' : Fin 128 → EReal}
    (hy : ∀ k, y k = y' k) (hw : ∀ o k, w o k = w' o k) (hb : ∀ j, b j = b' j) (hγ : ∀ j, γ j = γ' j)
    (hβ : ∀ j, β j = β' j) (o : Fin 128) : rowOut y w b γ β o = rowOut y' w' b' γ' β' o := by
  obtain rfl : y = y' := funext hy
  obtain rfl : w = w' := funext fun o => funext (hw o)
  obtain rfl : b = b' := funext hb
  obtain rfl : γ = γ' := funext hγ
  obtain rfl : β = β' := funext hβ
  rfl

/-- The array the specification names, of the arguments as launched. -/
abbrev result (c : Dev nD) : S2x50000x128.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What step t leaves in the output block at (l, r, o) is the specified result at (l, 2000·t + r, o). -/
theorem block_apply (c : Dev nD) (t : Fin cfg0.N) (l : Fin 2) (r : Fin 2000) (o : Fin 128) (g : Fin 50000)
    (hg : g.val = t.val * 2000 + r.val) :
    out0_6 (iblk m c 0 t) (iblk m c 1 t) (iblk m c 2 t) (iblk m c 3 t) (iblk m c 4 t) (iblk m c 5 t) (ix3 l r o)
      = result m c (ix3 l g o) := by
  rcases fin2_cases l with rfl | rfl
  · refine (out6_slab0 (iblk m c 0 t) (iblk m c 1 t) (iblk m c 2 t) (iblk m c 3 t) (iblk m c 4 t) (iblk m c 5 t) r o).trans ?_
    exact rowOut_congr (fun k => iblk0_at m c t r k g hg) (iblk2_at m c t) (iblk3_at m c t) (iblk4_at m c t) (iblk5_at m c t) o
  · refine (out6_slab1 (iblk m c 0 t) (iblk m c 1 t) (iblk m c 2 t) (iblk m c 3 t) (iblk m c 4 t) (iblk m c 5 t) r o).trans ?_
    exact rowOut_congr (fun k => iblk1_at m c t r k g hg) (iblk2_at m c t) (iblk3_at m c t) (iblk4_at m c t) (iblk5_at m c t) o

end Cert.KernelIdeal.ArrayValue

end
-- ==== Proof.KernelValue.lean ====
/-
  The result array after the grid.

  Step t writes its block back to rows 2000·t … 2000·t + 1999 of both slabs of the result array; the 25 steps' blocks cover
  the array, node g lying in the block of step g / 2000.  Each written block is the matching block of the specified result,
  so the array ends as the specified result.
-/
import proofs.«121667_j78091095376378_2_alg».proof.Proof.KernelBlock

noncomputable section

namespace Cert.KernelIdeal.ArrayValue

open Cert.KernelIdeal Cert.KernelIdeal.Gen Idealize.ShloMosaic Idealize.ShloMosaic.ValueIdx Idealize.ShloMosaic.TcCoe
open Idealize.SL.Sem Cert.AggNorm
open Idealize.ShloMosaic.Pipeline (Dat)

variable (m : (ℓ : Loc nD τ sig) → Buf (Elt Ideal) ℓ) (ρ : Dev nD → PrngReg)

/-- Row r of slab l of the output window's block at step t is row 2000·t + r of slab l of its array. -/
theorem blkread6 (A : S2x50000x128.Idx → EReal) (t : Fin cfg0.N) (l : Fin 2) (r : Fin 2000) (o : Fin 128) (g : Fin 50000)
    (hg : g.val = t.val * 2000 + r.val) :
    ((cfg0.win 6).blk t).view.read (Elt Ideal) A (ix3 l r o) = A (ix3 l g o) := by
  have e := idx_facts t
  rw [View.read_apply]
  refine congrArg A (funext fun a => Fin.ext ?_)
  match a with
  | ⟨0, _⟩ => show win0_6.index t (0 : Fin 3) * 2 + 1 * l.val = l.val; rw [e.2.2.2.2.2.2.2.2.2.2.2.2.1]; omega
  | ⟨1, _⟩ => show win0_6.index t (1 : Fin 3) * 2000 + 1 * r.val = g.val; rw [e.2.2.2.2.2.2.2.2.2.2.2.2.2.1, hg]; omega
  | ⟨2, _⟩ => show win0_6.index t (2 : Fin 3) * 128 + 1 * o.val = o.val; rw [e.2.2.2.2.2.2.2.2.2.2.2.2.2.2]; omega

/-- The whole output block is written back: the part of a block's contents that a write-back moves is the contents. -/
theorem cut6_apply (X : S2x2000x128.Idx → EReal) (t : Fin cfg0.N) (l : Fin 2) (r : Fin 2000) (o : Fin 128) :
    (cfg0.win 6).cut (grid0.coords t) X (ix3 l r o) = X (ix3 l r o) :=
  congrArg X (funext fun a => Fin.ext (by match a with | ⟨0, _⟩ => rfl | ⟨1, _⟩ => rfl | ⟨2, _⟩ => rfl))

/-- What step t writes back is block t of the specified result. -/
theorem flushed_eq (c : Dev nD) (t : Fin cfg0.N) :
    (dats m 0 c).flushed 6 t = ((cfg0.win 6).blk t).view.read (Elt Ideal) (result m c) := by
  rw [Value.flushed6]
  have ht := step_lt t
  funext j
  obtain ⟨l, r, o, rfl⟩ : ∃ (l : Fin 2) (r : Fin 2000) (o : Fin 128), j = ix3 l r o := ⟨j 0, j 1, j 2, eq_ix3 j⟩
  have hr := r.isLt
  exact (cut6_apply _ t l r o).trans ((block_apply m c t l r o (⟨t.val * 2000 + r.val, by omega⟩ : Fin 50000) rfl).trans
    (blkread6 (result m c) t l r o (⟨t.val * 2000 + r.val, by omega⟩ : Fin 50000) rfl).symm)

/-- An index of the result array is in step t's block iff each coordinate is in the block's range on its axis. -/
theorem mem_blk (t : Fin cfg0.N) (i : S2x50000x128.Idx) :
    i ∈ ((cfg0.win 6).blk t).view.set ↔ ∀ a : Fin 3, win0_6.index t a * S2x2000x128.size a ≤ (i a).val
      ∧ (i a).val < win0_6.index t a * S2x2000x128.size a + S2x2000x128.size a := by
  show i ∈ ((View.whole main_v34).slice (win0_6.rect t)).set ↔ _
  rw [View.set_slice_whole, Rect.mem_set_unit]
  exact Iff.rfl

/-- Every index of the result array is in some step's block: node g is in the block of step g / 2000. -/
theorem cover (i : S2x50000x128.Idx) :
    ∃ t : Fin cfg0.N, (cfg0.win 6).flush t = true ∧ i ∈ ((cfg0.win 6).blk t).view.set := by
  have h0 : (i 0).val < 2 := (i 0).isLt
  have h1 : (i 1).val < 50000 := (i 1).isLt
  have h2 : (i 2).val < 128 := (i 2).isLt
  have hN : cfg0.N = 25 := N_0
  have hq : (i 1).val / 2000 < cfg0.N := by rw [hN]; omega
  refine ⟨⟨(i 1).val / 2000, hq⟩, flush0_6 _, ?_⟩
  rw [mem_blk]
  have e := idx_facts ⟨(i 1).val / 2000, hq⟩
  intro a
  match a with
  | ⟨0, _⟩ =>
    show win0_6.index ⟨(i 1).val / 2000, hq⟩ (0 : Fin 3) * 2 ≤ (i 0).val
      ∧ (i 0).val < win0_6.index ⟨(i 1).val / 2000, hq⟩ (0 : Fin 3) * 2 + 2
    rw [e.2.2.2.2.2.2.2.2.2.2.2.2.1]; omega
  | ⟨1, _⟩ =>
    show win0_6.index ⟨(i 1).val / 2000, hq⟩ (1 : Fin 3) * 2000 ≤ (i 1).val
      ∧ (i 1).val < win0_6.index ⟨(i 1).val / 2000, hq⟩ (1 : Fin 3) * 2000 + 2000
    rw [e.2.2.2.2.2.2.2.2.2.2.2.2.2.1]
    show (i 1).val / 2000 * 2000 ≤ (i 1).val ∧ (i 1).val < (i 1).val / 2000 * 2000 + 2000
    omega
  | ⟨2, _⟩ =>
    show win0_6.index ⟨(i 1).val / 2000, hq⟩ (2 : Fin 3) * 128 ≤ (i 2).val
      ∧ (i 2).val < win0_6.index ⟨(i 1).val / 2000, hq⟩ (2 : Fin 3) * 128 + 128
    rw [e.2.2.2.2.2.2.2.2.2.2.2.2.2.2]; omega

/-- The result array after the grid is the specified result. -/
theorem final (c : Dev nD) : (dats m 0 c).arrAt 6 cfg0.N = result m c :=
  (dats m 0 c).arrAt_eq_of_cover 6 (result m c) (fun t _ => flushed_eq m c t) cover

/-- The run, read: the result array ends at the specified result, the arguments unchanged. -/
theorem run : θ_run defs (onTc (τ := τ) (main (F := Ideal))) ⟨m, fun _ => 0, ρ⟩ fun r => ∀ c : Dev nD,
      r.2.mem ((c : Thread nD τ).loc main_v34) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.RefSide.lean ====
/-
  The reference program read at an index: its last stage, entry by entry, is the specification's array.

  The stages are read in order. The aggregate (a transpose, a flattening of the two slabs into one row of 256
  features, a row gather by the wrapped source index, a product with the edge weight, an accumulating row scatter
  by the destination index, and the way back to three axes) is the specification's sum over the edges. The dense
  layer is a sum over the contracted axis plus the bias. The sigmoid-weighted unit is printed as
  h * (1 / (1 + exp (-h))), which is the logistic function by definition. The mean and the variance are sums over
  the last axis divided by 128, and the last stage is the centred entry times the inverse root, scaled and shifted.
-/
import proofs.«121667_j78091095376378_2_alg».proof.Proof.Gen.ReferenceIdeal.Read
import proofs.«121667_j78091095376378_2_alg».proof.Proof.Spec
import proofs.«121667_j78091095376378_2_alg».proof.Proof.LibLayoutReads
import Idealize.ShloMosaic.Lib.ValueLayout
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.AggNorm

/-! ## Index equations -/

/-- The transposed index of (l, g, d) is (g, l, d). -/
theorem idx16_ix3 (l : Fin 2) (g : Fin 50000) (d : Fin 128) : idx_main_v16 (ix3 l g d) = ix3 g l d :=
  funext fun a => Fin.ext (by match a with | ⟨0, _⟩ => rfl | ⟨1, _⟩ => rfl | ⟨2, _⟩ => rfl)

/-- Entry (g, l, d) of the three-axis array is entry (g, 128 l + d) of the two-axis one. -/
theorem idx15_ix3 (g : Fin 50000) (l : Fin 2) (d : Fin 128) :
    idx_main_v15 (ix3 g l d) = ix2 g (⟨l.val * 128 + d.val, by have := l.isLt; have := d.isLt; omega⟩ : Fin 256) :=
  funext fun a => Fin.ext (by
    have hg := g.isLt; have hl := l.isLt; have hd := d.isLt
    match a with
    | ⟨0, _⟩ => show ((g.val * 2 + l.val) * 128 + d.val) / 256 = g.val; omega
    | ⟨1, _⟩ => show ((g.val * 2 + l.val) * 128 + d.val) % 256 = l.val * 128 + d.val; omega)

/-- Entry (q, 128 l + d) of the flattened table is entry (q, l, d) of the three-axis one. -/
theorem idx1_ix2 (q : Fin 50000) (l : Fin 2) (d : Fin 128) :
    idx_main_v1 (ix2 q (⟨l.val * 128 + d.val, by have := l.isLt; have := d.isLt; omega⟩ : Fin 256)) = ix3 q l d :=
  funext fun a => Fin.ext (by
    have hq := q.isLt; have hl := l.isLt; have hd := d.isLt
    match a with
    | ⟨0, _⟩ => show (q.val * 256 + (l.val * 128 + d.val)) / 256 = q.val; omega
    | ⟨1, _⟩ => show (q.val * 256 + (l.val * 128 + d.val)) / 128 % 2 = l.val; omega
    | ⟨2, _⟩ => show (q.val * 256 + (l.val * 128 + d.val)) % 128 = d.val; omega)

/-- The transposed index of (q, l, d) is (l, q, d). -/
theorem idx0_ix3 (q : Fin 50000) (l : Fin 2) (d : Fin 128) : idx_main_v0 (ix3 q l d) = ix3 l q d :=
  funext fun a => Fin.ext (by match a with | ⟨0, _⟩ => rfl | ⟨1, _⟩ => rfl | ⟨2, _⟩ => rfl)

/-- The flattened table at (q, 128 l + d) is the argument at (l, q, d). -/
theorem v1_at (x0 : (⟨S2x50000x128, .f32⟩ : BufTy).Contents (Elt Ideal)) (q : Fin 50000) (l : Fin 2) (d : Fin 128) :
    val_main_v1 (F := Ideal) x0 (ix2 q (⟨l.val * 128 + d.val, by have := l.isLt; have := d.isLt; omega⟩ : Fin 256))
      = x0 (ix3 l q d) := by
  rw [val_main_v1_apply, idx1_ix2, val_main_v0_apply, idx0_ix3]

/-! ## The source and destination index columns, the weight column -/

/-- The column index (e, 0) is read back as e. -/
theorem idx7_ix2 (e : Fin 800000) : idx_main_v7 (ix2 e (0 : Fin 1)) = ix1 e :=
  funext fun a => Fin.ext (by match a with | ⟨0, _⟩ => rfl)

/-- The destination column's index (e, 0) is read back as e. -/
theorem idx13_ix2 (e : Fin 800000) : idx_main_v13 (ix2 e (0 : Fin 1)) = ix1 e :=
  funext fun a => Fin.ext (by match a with | ⟨0, _⟩ => rfl)

/-- The weight column's index (e, 0) is read back as e. -/
theorem idx9_ix2 (e : Fin 800000) : idx_main_v9 (ix2 e (0 : Fin 1)) = ix1 e :=
  funext fun a => Fin.ext (by match a with | ⟨0, _⟩ => rfl)

/-- Entry (e, c) of the repeated weight column reads the column at (e, 0). -/
theorem idx10_ix2 (e : Fin 800000) (c : Fin 256) : idx_main_v10 (ix2 e c) = ix2 e (0 : Fin 1) :=
  funext fun a => Fin.ext (by match a with | ⟨0, _⟩ => rfl | ⟨1, _⟩ => rfl)

/-- The source index column at edge e is the wrapped source word. -/
theorem v7_at (x2 : (⟨S800000, .i32⟩ : BufTy).Contents (Elt Ideal)) (e : Fin 800000) :
    val_main_v7 (F := Ideal) x2 (ix2 e (0 : Fin 1)) = wrapWord (x2 (ix1 e)) := by
  rw [val_main_v7_apply, idx7_ix2, val_main_v6_apply, val_main_v3_apply, val_main_v5_apply, val_main_v2_apply,
    val_main_v4_apply, val_main_c_apply, val_main_c_0_apply]
  rfl

/-- The destination index column at edge e is the destination word. -/
theorem v13_at (x1 : (⟨S800000, .i32⟩ : BufTy).Contents (Elt Ideal)) (e : Fin 800000) :
    val_main_v13 (F := Ideal) x1 (ix2 e (0 : Fin 1)) = x1 (ix1 e) := by
  rw [val_main_v13_apply, idx13_ix2]

/-- The weight, repeated along the features, at (e, c) is the weight of edge e. -/
theorem v10_at (x3 : (⟨S800000, .f32⟩ : BufTy).Contents (Elt Ideal)) (e : Fin 800000) (c : Fin 256) :
    val_main_v10 (F := Ideal) x3 (ix2 e c) = x3 (ix1 e) := by
  rw [val_main_v10_apply, idx10_ix2, val_main_v9_apply, idx9_ix2]

/-- The gathered row of edge e at feature 128 l + d is the argument at (l, clamped wrapped source, d). -/
theorem v8_at (x0 : (⟨S2x50000x128, .f32⟩ : BufTy).Contents (Elt Ideal)) (x2 : (⟨S800000, .i32⟩ : BufTy).Contents (Elt Ideal))
    (e : Fin 800000) (l : Fin 2) (d : Fin 128) :
    val_main_v8 (F := Ideal) x0 x2 (ix2 e (⟨l.val * 128 + d.val, by have := l.isLt; have := d.isLt; omega⟩ : Fin 256))
      = x0 (ix3 l (Cert.Gcn.clampRow nodes_pos (wrapWord (x2 (ix1 e)))) d) := by
  unfold val_main_v8
  refine (Cert.Gcn.rowGather_host nodes_pos _ gather_S50000x256_S800000x1_S800000x256_1_0_n_n_0_1_1256_wf rfl _ _ e _).trans ?_
  rw [v7_at, v1_at]

/-- The weighted gathered row. -/
theorem v11_at (x0 : (⟨S2x50000x128, .f32⟩ : BufTy).Contents (Elt Ideal)) (x2 : (⟨S800000, .i32⟩ : BufTy).Contents (Elt Ideal))
    (x3 : (⟨S800000, .f32⟩ : BufTy).Contents (Elt Ideal)) (e : Fin 800000) (l : Fin 2) (d : Fin 128) :
    val_main_v11 (F := Ideal) x0 x2 x3 (ix2 e (⟨l.val * 128 + d.val, by have := l.isLt; have := d.isLt; omega⟩ : Fin 256))
      = x0 (ix3 l (Cert.Gcn.clampRow nodes_pos (wrapWord (x2 (ix1 e)))) d) * x3 (ix1 e) := by
  rw [val_main_v11_apply, v8_at, v10_at]
  rfl

/-! ## The aggregate -/

/-- The zero table that the scatter accumulates into. -/
theorem v12_at (j : S50000x256.Idx) : val_main_v12 (F := Ideal) j = Ideal.ofBits .f32 0x00000000#32 := by
  rw [val_main_v12_apply, val_main_cst_apply]
  rfl

/-- The scattered table at (g, 128 l + d) is the specification's aggregate. -/
theorem v14_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (l : Fin 2) (g : Fin 50000) (d : Fin 128) :
    val_main_v14 (F := Ideal) x0 x1 x2 x3 (ix2 g (⟨l.val * 128 + d.val, by have := l.isLt; have := d.isLt; omega⟩ : Fin 256))
      = agg x0 x1 x2 x3 l g d := by
  unfold val_main_v14
  refine (Cert.Gcn.rowScatterAdd_host _ scatter_S50000x256_S800000x1_S800000x256_1_0_0_1_wf rfl _ _ _ g _).trans ?_
  rw [v12_at]
  unfold agg
  refine congrArg (_ + ·) (Finset.sum_congr rfl fun e _ => ?_)
  rw [v13_at, v11_at]

/-- The aggregate stage at (l, g, d). -/
theorem v16_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (l : Fin 2) (g : Fin 50000) (d : Fin 128) :
    val_main_v16 (F := Ideal) x0 x1 x2 x3 (ix3 l g d) = agg x0 x1 x2 x3 l g d := by
  rw [val_main_v16_apply, idx16_ix3, val_main_v15_apply, idx15_ix3, v14_at]

/-! ## The dense layer -/

/-- The left operand of the contraction for entry (l, g, o), term k, is read at (l, g, k). -/
theorem lidx17_ix3 (l : Fin 2) (g : Fin 50000) (o k : Fin 128) : lidx_main_v17 (ix3 l g o) k = ix3 l g k :=
  funext fun a => Fin.ext (by match a with | ⟨0, _⟩ => rfl | ⟨1, _⟩ => rfl | ⟨2, _⟩ => rfl)

/-- The right operand of the contraction for entry (l, g, o), term k, is read at (o, k). -/
theorem ridx17_ix3 (l : Fin 2) (g : Fin 50000) (o k : Fin 128) : ridx_main_v17 (ix3 l g o) k = ix2 o k :=
  funext fun a => Fin.ext (by match a with | ⟨0, _⟩ => rfl | ⟨1, _⟩ => rfl)

/-- Entry (l, g, o) of the repeated bias reads the row (0, 0, o). -/
theorem idx19_ix3 (l : Fin 2) (g : Fin 50000) (o : Fin 128) :
    idx_main_v19 (ix3 l g o) = ix3 (0 : Fin 1) (0 : Fin 1) o :=
  funext fun a => Fin.ext (by match a with | ⟨0, _⟩ => rfl | ⟨1, _⟩ => rfl | ⟨2, _⟩ => rfl)

/-- Entry (0, 0, o) of the bias as a row reads the bias at o. -/
theorem idx18_ix3 (o : Fin 128) : idx_main_v18 (ix3 (0 : Fin 1) (0 : Fin 1) o) = ix1 o :=
  funext fun a => Fin.ext (by match a with | ⟨0, _⟩ => rfl)

/-- The bias, repeated for every row, at (l, g, o) is the bias at o. -/
theorem v19_at (x5 : (⟨S128, .f32⟩ : BufTy).Contents (Elt Ideal)) (l : Fin 2) (g : Fin 50000) (o : Fin 128) :
    val_main_v19 (F := Ideal) x5 (ix3 l g o) = x5 (ix1 o) := by
  rw [val_main_v19_apply, idx19_ix3, val_main_v18_apply, idx18_ix3]

/-- The dense layer at (l, g, o). -/
theorem v20_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (l : Fin 2) (g : Fin 50000) (o : Fin 128) :
    val_main_v20 (F := Ideal) x0 x1 x2 x3 x4 x5 (ix3 l g o)
      = Cert.AggNorm.hidden (fun d => agg x0 x1 x2 x3 l g d) (fun o k => x4 (ix2 o k)) (fun j => x5 (ix1 j)) o := by
  rw [val_main_v20_apply, val_main_v17_apply, v19_at, Ideal.addf_def]
  unfold Cert.AggNorm.hidden
  refine congrArg₂ (· + ·) (Finset.sum_congr rfl fun k _ => ?_) rfl
  rw [lidx17_ix3, ridx17_ix3, v16_at]

/-! ## The sigmoid-weighted unit -/

/-- At every index the unit's stage is h·σ(h) of the dense layer's entry: 1 / (1 + exp (-h)) is the logistic function. -/
theorem v27_eq_silu (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (i : S2x50000x128.Idx) :
    val_main_v27 (F := Ideal) x0 x1 x2 x3 x4 x5 i = silu (val_main_v20 (F := Ideal) x0 x1 x2 x3 x4 x5 i) := by
  rw [val_main_v27_apply, val_main_v26_apply, val_main_v25_apply, val_main_cst_2_apply, val_main_v24_apply,
    val_main_v23_apply, val_main_cst_1_apply, val_main_v22_apply, val_main_v21_apply]
  simp only [Ideal.mulf_def, Ideal.hostDivf_def, Ideal.addf_def, Ideal.hostUnary_exp_def, Ideal.hostNegf_def,
    Ideal.negf_def, Ideal.ofBits_def, Ideal.ofBits_one_f32]
  rfl

/-- The unit's stage at (l, g, o). -/
theorem v27_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (l : Fin 2) (g : Fin 50000) (o : Fin 128) :
    val_main_v27 (F := Ideal) x0 x1 x2 x3 x4 x5 (ix3 l g o)
      = silu (Cert.AggNorm.hidden (fun d => agg x0 x1 x2 x3 l g d) (fun o k => x4 (ix2 o k)) (fun j => x5 (ix1 j)) o) := by
  rw [v27_eq_silu, v20_at]

/-! ## The mean, the centred row, the variance -/

/-- The row of the unit's values at (l, g). -/
abbrev sRow (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (l : Fin 2) (g : Fin 50000) : Fin 128 → EReal :=
  fun j => silu (Cert.AggNorm.hidden (fun d => agg x0 x1 x2 x3 l g d) (fun o k => x4 (ix2 o k)) (fun j => x5 (ix1 j)) j)

/-- The unit's stage at (l, g, o) is entry o of the row at (l, g). -/
theorem v27_row (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (l : Fin 2) (g : Fin 50000) (o : Fin 128) :
    val_main_v27 (F := Ideal) x0 x1 x2 x3 x4 x5 (ix3 l g o) = sRow x0 x1 x2 x3 x4 x5 l g o :=
  v27_at x0 x1 x2 x3 x4 x5 l g o

/-- Entry (l, g, 0) of the kept-axis sum reads the sum at (l, g). -/
theorem idx29_ix3 (l : Fin 2) (g : Fin 50000) : idx_main_v29 (ix3 l g (0 : Fin 1)) = ix2 l g :=
  funext fun a => Fin.ext (by match a with | ⟨0, _⟩ => rfl | ⟨1, _⟩ => rfl)

/-- Term k of the sum at (l, g) reads the summand at (l, g, k). -/
theorem idx28_ix2 (l : Fin 2) (g : Fin 50000) (k : Fin 128) : idx_main_v28 (ix2 l g) k = ix3 l g k :=
  funext fun a => Fin.ext (by match a with | ⟨0, _⟩ => rfl | ⟨1, _⟩ => rfl | ⟨2, _⟩ => rfl)

/-- Entry (l, g, 0) of the kept-axis sum of squares reads the sum at (l, g). -/
theorem idx36_ix3 (l : Fin 2) (g : Fin 50000) : idx_main_v36 (ix3 l g (0 : Fin 1)) = ix2 l g :=
  funext fun a => Fin.ext (by match a with | ⟨0, _⟩ => rfl | ⟨1, _⟩ => rfl)

/-- Term k of the sum of squares at (l, g) reads the summand at (l, g, k). -/
theorem idx35_ix2 (l : Fin 2) (g : Fin 50000) (k : Fin 128) : idx_main_v35 (ix2 l g) k = ix3 l g k :=
  funext fun a => Fin.ext (by match a with | ⟨0, _⟩ => rfl | ⟨1, _⟩ => rfl | ⟨2, _⟩ => rfl)

/-- Entry (l, g, o) of the repeated mean reads the mean at (l, g, 0). -/
theorem idx32_ix3 (l : Fin 2) (g : Fin 50000) (o : Fin 128) : idx_main_v32 (ix3 l g o) = ix3 l g (0 : Fin 1) :=
  funext fun a => Fin.ext (by match a with | ⟨0, _⟩ => rfl | ⟨1, _⟩ => rfl | ⟨2, _⟩ => rfl)

/-- Entry (l, g, o) of the second repeated mean reads the mean at (l, g, 0). -/
theorem idx39_ix3 (l : Fin 2) (g : Fin 50000) (o : Fin 128) : idx_main_v39 (ix3 l g o) = ix3 l g (0 : Fin 1) :=
  funext fun a => Fin.ext (by match a with | ⟨0, _⟩ => rfl | ⟨1, _⟩ => rfl | ⟨2, _⟩ => rfl)

/-- Entry (l, g, o) of the repeated inverse root reads it at (l, g, 0). -/
theorem idx44_ix3 (l : Fin 2) (g : Fin 50000) (o : Fin 128) : idx_main_v44 (ix3 l g o) = ix3 l g (0 : Fin 1) :=
  funext fun a => Fin.ext (by match a with | ⟨0, _⟩ => rfl | ⟨1, _⟩ => rfl | ⟨2, _⟩ => rfl)

/-- The mean stage at (l, g, 0) is the mean of the row. -/
theorem v31_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (l : Fin 2) (g : Fin 50000) :
    val_main_v31 (F := Ideal) x0 x1 x2 x3 x4 x5 (ix3 l g (0 : Fin 1)) = mean128 (sRow x0 x1 x2 x3 x4 x5 l g) := by
  rw [val_main_v31_apply, val_main_v29_apply, idx29_ix3, val_main_v28_apply, val_main_cst_3_apply, val_main_v30_apply,
    val_main_cst_4_apply, Ideal.hostDivf_def, Ideal.ofBits_def, Ideal.ofBits_def, Ideal.ofBits_zero_f32, zero_add]
  unfold mean128
  refine congrArg₂ Ideal.div (Finset.sum_congr rfl fun k _ => ?_) rfl
  rw [idx28_ix2, v27_row]

/-- The first centred stage at (l, g, o). -/
theorem v33_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (l : Fin 2) (g : Fin 50000) (o : Fin 128) :
    val_main_v33 (F := Ideal) x0 x1 x2 x3 x4 x5 (ix3 l g o) = centred (sRow x0 x1 x2 x3 x4 x5 l g) o := by
  rw [val_main_v33_apply, val_main_v32_apply, idx32_ix3, v31_at, v27_row, Ideal.subf_def]
  rfl

/-- The second centred stage at (l, g, o): the same value. -/
theorem v40_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (l : Fin 2) (g : Fin 50000) (o : Fin 128) :
    val_main_v40 (F := Ideal) x0 x1 x2 x3 x4 x5 (ix3 l g o) = centred (sRow x0 x1 x2 x3 x4 x5 l g) o := by
  rw [val_main_v40_apply, val_main_v39_apply, idx39_ix3, v31_at, v27_row, Ideal.subf_def]
  rfl

/-- The variance stage at (l, g, 0) is the mean of the squared centred row. -/
theorem v38_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (l : Fin 2) (g : Fin 50000) :
    val_main_v38 (F := Ideal) x0 x1 x2 x3 x4 x5 (ix3 l g (0 : Fin 1))
      = mean128 (fun k => centred (sRow x0 x1 x2 x3 x4 x5 l g) k * centred (sRow x0 x1 x2 x3 x4 x5 l g) k) := by
  rw [val_main_v38_apply, val_main_v36_apply, idx36_ix3, val_main_v35_apply, val_main_cst_5_apply, val_main_v37_apply,
    val_main_cst_6_apply, Ideal.hostDivf_def, Ideal.ofBits_def, Ideal.ofBits_def, Ideal.ofBits_zero_f32, zero_add]
  unfold mean128
  refine congrArg₂ Ideal.div (Finset.sum_congr rfl fun k _ => ?_) rfl
  rw [idx35_ix2, val_main_v34_apply, v33_at, Ideal.mulf_def]

/-! ## The last stage -/

/-- Entry (l, g, o) of the repeated scale reads the row (0, 0, o). -/
theorem idx47_ix3 (l : Fin 2) (g : Fin 50000) (o : Fin 128) :
    idx_main_v47 (ix3 l g o) = ix3 (0 : Fin 1) (0 : Fin 1) o :=
  funext fun a => Fin.ext (by match a with | ⟨0, _⟩ => rfl | ⟨1, _⟩ => rfl | ⟨2, _⟩ => rfl)

/-- Entry (0, 0, o) of the scale as a row reads the scale at o. -/
theorem idx46_ix3 (o : Fin 128) : idx_main_v46 (ix3 (0 : Fin 1) (0 : Fin 1) o) = ix1 o :=
  funext fun a => Fin.ext (by match a with | ⟨0, _⟩ => rfl)

/-- Entry (l, g, o) of the repeated shift reads the row (0, 0, o). -/
theorem idx50_ix3 (l : Fin 2) (g : Fin 50000) (o : Fin 128) :
    idx_main_v50 (ix3 l g o) = ix3 (0 : Fin 1) (0 : Fin 1) o :=
  funext fun a => Fin.ext (by match a with | ⟨0, _⟩ => rfl | ⟨1, _⟩ => rfl | ⟨2, _⟩ => rfl)

/-- Entry (0, 0, o) of the shift as a row reads the shift at o. -/
theorem idx49_ix3 (o : Fin 128) : idx_main_v49 (ix3 (0 : Fin 1) (0 : Fin 1) o) = ix1 o :=
  funext fun a => Fin.ext (by match a with | ⟨0, _⟩ => rfl)

/-- The scale, repeated for every row, at (l, g, o) is the scale at o. -/
theorem v47_at (x6 : (⟨S128, .f32⟩ : BufTy).Contents (Elt Ideal)) (l : Fin 2) (g : Fin 50000) (o : Fin 128) :
    val_main_v47 (F := Ideal) x6 (ix3 l g o) = x6 (ix1 o) := by
  rw [val_main_v47_apply, idx47_ix3, val_main_v46_apply, idx46_ix3]

/-- The shift, repeated for every row, at (l, g, o) is the shift at o. -/
theorem v50_at (x7 : (⟨S128, .f32⟩ : BufTy).Contents (Elt Ideal)) (l : Fin 2) (g : Fin 50000) (o : Fin 128) :
    val_main_v50 (F := Ideal) x7 (ix3 l g o) = x7 (ix1 o) := by
  rw [val_main_v50_apply, idx50_ix3, val_main_v49_apply, idx49_ix3]

/-- The inverse root of the variance plus ε at (l, g, 0). -/
theorem v43_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) (l : Fin 2) (g : Fin 50000) :
    val_main_v43 (F := Ideal) x0 x1 x2 x3 x4 x5 (ix3 l g (0 : Fin 1))
      = Ideal.rsqrt (mean128 (fun k => centred (sRow x0 x1 x2 x3 x4 x5 l g) k * centred (sRow x0 x1 x2 x3 x4 x5 l g) k)
          + Ideal.ofBits .f32 0x3727C5AC#32) := by
  rw [val_main_v43_apply, val_main_v42_apply, v38_at, val_main_v41_apply, val_main_cst_7_apply, Ideal.hostUnary_rsqrt_def,
    Ideal.addf_def, Ideal.ofBits_def]

/-- The last stage at (l, g, o) is the normalised row's entry. -/
theorem v51_at (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 x6 x7 : (⟨S128, .f32⟩ : BufTy).Contents (Elt Ideal)) (l : Fin 2) (g : Fin 50000) (o : Fin 128) :
    val_main_v51 (F := Ideal) x0 x1 x2 x3 x4 x5 x6 x7 (ix3 l g o)
      = normRow (sRow x0 x1 x2 x3 x4 x5 l g) (fun j => x6 (ix1 j)) (fun j => x7 (ix1 j)) o := by
  rw [val_main_v51_apply, val_main_v48_apply, val_main_v45_apply, val_main_v44_apply, idx44_ix3, v43_at, v40_at, v47_at,
    v50_at, Ideal.addf_def, Ideal.mulf_def, Ideal.mulf_def]
  rfl

/-- The reference program's result is the specification's array. -/
theorem ref_eq (x0 : (⟨S2x50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 x6 x7 : (⟨S128, .f32⟩ : BufTy).Contents (Elt Ideal)) :
    Read.val_main_v51 (F := Ideal) x0 x1 x2 x3 x4 x5 x6 x7 = Cert.AggNorm.out x0 x1 x2 x3 x4 x5 x6 x7 := by
  funext i
  obtain ⟨l, g, o, rfl⟩ : ∃ (l : Fin 2) (g : Fin 50000) (o : Fin 128), i = ix3 l g o := ⟨i 0, i 1, i 2, eq_ix3 i⟩
  rw [out_ix3, v51_at]
  rfl

end Cert.ReferenceIdeal.RefValue

end
-- ==== Proof.lean ====
/-
  A sparse aggregation followed by a dense layer, the sigmoid-weighted unit and a row normalisation: the kernel program
  and the reference program compute the same array on the extended reals.

  Both programs aggregate, for each of the two feature slabs, the features of the edges' source nodes, weighted, into the
  edges' destination nodes.  The kernel program does so slab by slab on arrays of 128 features; the reference program
  flattens the two slabs into rows of 256 features and separates them again afterwards.  Read at an entry, both are the
  same sum over the edges, because gathering a row, multiplying it by a weight and scattering it touch each feature on its
  own.  The dense layer is the same sum over the contracted axis (the kernel multiplies by the transposed matrix, the
  reference contracts the matrix's second axis), the sigmoid-weighted unit is h·σ(h) on both sides (σ is by definition
  1 / (1 + exp(−h)), which is how the reference spells it), and the normalisation is the same expression of the row's sum
  and of the sum of its squared deviations.  The kernel walks the nodes in 25 blocks of 2000; every entry of the result lies
  in exactly the block of its node, so the blocks written back make up the whole array.

  No law of the extended reals beyond the definitions is used: the two sides are the same expression, so the finiteness of
  the inputs is not needed.  The three frame claims are the generated runs; the idealised kernel is the kernel's own text
  read on the extended reals, so nothing is owed for it.
-/
import proofs.«121667_j78091095376378_2_alg».proof.Defs
import proofs.«121667_j78091095376378_2_alg».proof.Proof.Gen.Kernel
import proofs.«121667_j78091095376378_2_alg».proof.Proof.Gen.Kernel.Skeleton
import proofs.«121667_j78091095376378_2_alg».proof.Proof.Gen.Kernel.Launch
import proofs.«121667_j78091095376378_2_alg».proof.Proof.Gen.Kernel.Points
import proofs.«121667_j78091095376378_2_alg».proof.Proof.Gen.Kernel.Frame
import proofs.«121667_j78091095376378_2_alg».proof.Proof.Gen.KernelIdeal
import proofs.«121667_j78091095376378_2_alg».proof.Proof.Gen.KernelIdeal.Skeleton
import proofs.«121667_j78091095376378_2_alg».proof.Proof.Gen.KernelIdeal.Launch
import proofs.«121667_j78091095376378_2_alg».proof.Proof.Gen.KernelIdeal.Points
import proofs.«121667_j78091095376378_2_alg».proof.Proof.Gen.KernelIdeal.Frame
import proofs.«121667_j78091095376378_2_alg».proof.Proof.Gen.ReferenceIdeal
import proofs.«121667_j78091095376378_2_alg».proof.Proof.Gen.Pre_finite_inputs
import proofs.«121667_j78091095376378_2_alg».proof.Proof.Gen.KernelIdeal.Value
import proofs.«121667_j78091095376378_2_alg».proof.Proof.Gen.ReferenceIdeal.Run
import proofs.«121667_j78091095376378_2_alg».proof.Proof.Gen.ReferenceIdeal.Read
import proofs.«121667_j78091095376378_2_alg».proof.Proof.KernelValue
import proofs.«121667_j78091095376378_2_alg».proof.Proof.RefSide
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference program: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end with the specified array of their arguments, and the arguments agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v51_eq, Cert.ReferenceIdeal.RefValue.ref_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
